-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512x14x14 : Shape := ⟨4, ![1024, 512, 14, 14]⟩
abbrev S1024x1024x7x7 : Shape := ⟨4, ![1024, 1024, 7, 7]⟩
abbrev S100x512 : Shape := ⟨2, ![100, 512]⟩
abbrev S100 : Shape := ⟨1, ![100]⟩
abbrev S50x1024 : Shape := ⟨2, ![50, 1024]⟩
abbrev S50 : Shape := ⟨1, ![50]⟩
abbrev S1000 : Shape := ⟨1, ![1000]⟩
abbrev S1024 : Shape := ⟨1, ![1024]⟩
abbrev S_ : Shape := ⟨0, ![]⟩

class Facts : Prop where
  bcast_S_S1024x512x14x14 : S_.BroadcastsInDim S1024x512x14x14 (![] : Fin 0 → Fin S1024x512x14x14.rank)
  reducesTo_S1024x512x14x14_S_d0_1_2_3 : S1024x512x14x14.ReducesTo [0, 1, 2, 3] S_
  h_S_ : 0 < S_.numel
  bcast_S_S1024x1024x7x7 : S_.BroadcastsInDim S1024x1024x7x7 (![] : Fin 0 → Fin S1024x1024x7x7.rank)
  reducesTo_S1024x1024x7x7_S_d0_1_2_3 : S1024x1024x7x7.ReducesTo [0, 1, 2, 3] S_
  bcast_S_S100x512 : S_.BroadcastsInDim S100x512 (![] : Fin 0 → Fin S100x512.rank)
  reducesTo_S100x512_S_d0_1 : S100x512.ReducesTo [0, 1] S_
  bcast_S_S100 : S_.BroadcastsInDim S100 (![] : Fin 0 → Fin S100.rank)
  reducesTo_S100_S_d0 : S100.ReducesTo [0] S_
  bcast_S_S50x1024 : S_.BroadcastsInDim S50x1024 (![] : Fin 0 → Fin S50x1024.rank)
  reducesTo_S50x1024_S_d0_1 : S50x1024.ReducesTo [0, 1] S_
  bcast_S_S50 : S_.BroadcastsInDim S50 (![] : Fin 0 → Fin S50.rank)
  reducesTo_S50_S_d0 : S50.ReducesTo [0] S_

variable [Facts]

def fn_part2 {F : FTy → Type} [FloatOps F] (main_arg9 : FVec F S50 .f32) (main_v33 : IVec S_ 1) : IVec S_ 1 :=
  let main_v34 : FVec F S50 .f32 := Host.absf main_arg9
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  main_v38

def fn_part1 {F : FTy → Type} [FloatOps F] (main_arg4 : FVec F S50x1024 .f32) (main_arg5 : FVec F S50 .f32) (main_arg8 : FVec F S100 .f32) (main_arg9 : FVec F S50 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S50x1024 .f32 := Host.absf main_arg4
  let main_cst_6 : FVec F S_ .f32 := constant S_ .f32 0x7F800000#32
  let main_v20 : FVec F S50x1024 .f32 := broadcastInDim S50x1024 ![] bcast_S_S50x1024 main_cst_6
  let main_v21 : IVec S50x1024 1 := cmpf .olt main_v19 main_v20
  let main_c_7 : IVec S_ 1 := constantI S_ 1 1#1
  let main_v22 : IVec S_ 1 := (fun x v => Host.reduce IntOp.andi x v reducesTo_S50x1024_S_d0_1 h_S_) main_v21 main_c_7
  let main_v23 : IVec S_ 1 := andi main_v18 main_v22
  let main_v24 : FVec F S50 .f32 := Host.absf main_arg5
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_v33

def fn {F : FTy → Type} [FloatOps F] (main_arg0 : FVec F S1024x512x14x14 .f32) (main_arg1 : FVec F S1024x1024x7x7 .f32) (main_arg2 : FVec F S100x512 .f32) (main_arg3 : FVec F S100 .f32) (main_arg4 : FVec F S50x1024 .f32) (main_arg5 : FVec F S50 .f32) (main_arg6 : IVec S1000 32) (main_arg7 : IVec S1000 32) (main_arg8 : FVec F S100 .f32) (main_arg9 : FVec F S50 .f32) (main_arg10 : IVec S1024 32) : IVec S_ 1 :=
  let main_v0 : FVec F S1024x512x14x14 .f32 := Host.absf main_arg0
  let main_cst : FVec F S_ .f32 := constant S_ .f32 0x7F800000#32
  let main_v1 : FVec F S1024x512x14x14 .f32 := broadcastInDim S1024x512x14x14 ![] bcast_S_S1024x512x14x14 main_cst
  let main_v2 : IVec S1024x512x14x14 1 := cmpf .olt main_v0 main_v1
  let main_c : IVec S_ 1 := constantI S_ 1 1#1
  let main_v3 : IVec S_ 1 := (fun x v => Host.reduce IntOp.andi x v reducesTo_S1024x512x14x14_S_d0_1_2_3 h_S_) main_v2 main_c
  let main_v4 : FVec F S1024x1024x7x7 .f32 := Host.absf main_arg1
  let main_cst_0 : FVec F S_ .f32 := constant S_ .f32 0x7F800000#32
  let main_v5 : FVec F S1024x1024x7x7 .f32 := broadcastInDim S1024x1024x7x7 ![] bcast_S_S1024x1024x7x7 main_cst_0
  let main_v6 : IVec S1024x1024x7x7 1 := cmpf .olt main_v4 main_v5
  let main_c_1 : IVec S_ 1 := constantI S_ 1 1#1
  let main_v7 : IVec S_ 1 := (fun x v => Host.reduce IntOp.andi x v reducesTo_S1024x1024x7x7_S_d0_1_2_3 h_S_) main_v6 main_c_1
  let main_v8 : IVec S_ 1 := andi main_v3 main_v7
  let main_v9 : FVec F S100x512 .f32 := Host.absf main_arg2
  let main_cst_2 : FVec F S_ .f32 := constant S_ .f32 0x7F800000#32
  let main_v10 : FVec F S100x512 .f32 := broadcastInDim S100x512 ![] bcast_S_S100x512 main_cst_2
  let main_v11 : IVec S100x512 1 := cmpf .olt main_v9 main_v10
  let main_c_3 : IVec S_ 1 := constantI S_ 1 1#1
  let main_v12 : IVec S_ 1 := (fun x v => Host.reduce IntOp.andi x v reducesTo_S100x512_S_d0_1 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg8 main_arg9 main_v13 main_v16
-- ==== Kernel.lean ====
abbrev S1024x512x14x14 : Shape := ⟨4, ![1024, 512, 14, 14]⟩
abbrev S1024x1024x7x7 : Shape := ⟨4, ![1024, 1024, 7, 7]⟩
abbrev S100x512 : Shape := ⟨2, ![100, 512]⟩
abbrev S100 : Shape := ⟨1, ![100]⟩
abbrev S50x1024 : Shape := ⟨2, ![50, 1024]⟩
abbrev S50 : Shape := ⟨1, ![50]⟩
abbrev S1000 : Shape := ⟨1, ![1000]⟩
abbrev S1024 : Shape := ⟨1, ![1024]⟩
abbrev S1024x512x196 : Shape := ⟨3, ![1024, 512, 196]⟩
abbrev S1024x512 : Shape := ⟨2, ![1024, 512]⟩
abbrev S64x256x196 : Shape := ⟨3, ![64, 256, 196]⟩
abbrev S64x256 : Shape := ⟨2, ![64, 256]⟩
abbrev S1024x1024x49 : Shape := ⟨3, ![1024, 1024, 49]⟩
abbrev S1024x1024 : Shape := ⟨2, ![1024, 1024]⟩
abbrev S64x512x49 : Shape := ⟨3, ![64, 512, 49]⟩
abbrev S64x512 : Shape := ⟨2, ![64, 512]⟩
abbrev S512x100 : Shape := ⟨2, ![512, 100]⟩
abbrev S1024x100 : Shape := ⟨2, ![1024, 100]⟩
abbrev S1x100 : Shape := ⟨2, ![1, 100]⟩
abbrev S1024x50 : Shape := ⟨2, ![1024, 50]⟩
abbrev S1x50 : Shape := ⟨2, ![1, 50]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 154
  | .vmem => 8
  | .smem => 0
  | _ => 0

abbrev hbmTy0_0 (i : Nat) : BufTy := match i % 128 with
  | 0 => ⟨S1024x512x14x14, .f32⟩
  | 1 => ⟨S1024x1024x7x7, .f32⟩
  | 2 => ⟨S100x512, .f32⟩
  | 3 => ⟨S100, .f32⟩
  | 4 => ⟨S50x1024, .f32⟩
  | 5 => ⟨S50, .f32⟩
  | 6 => ⟨S1000, .i32⟩
  | 7 => ⟨S1000, .i32⟩
  | 8 => ⟨S100, .f32⟩
  | 9 => ⟨S50, .f32⟩
  | 10 => ⟨S1024, .i32⟩
  | 11 => ⟨S1024x512x196, .f32⟩
  | 12 => ⟨S1024x512, .f32⟩
  | 13 => ⟨S1024x1024x49, .f32⟩
  | 14 => ⟨S1024x1024, .f32⟩
  | 15 => ⟨S512x100, .f32⟩
  | 16 => ⟨S1024x100, .f32⟩
  | 17 => ⟨S1x100, .f32⟩
  | 18 => ⟨S1024x100, .f32⟩
  | 19 => ⟨S1024x100, .f32⟩
  | 20 => ⟨S1024x50, .f32⟩
  | 21 => ⟨S1024x50, .f32⟩
  | 22 => ⟨S1x50, .f32⟩
  | 23 => ⟨S1024x50, .f32⟩
  | 24 => ⟨S1024x50, .f32⟩
  | 25 => ⟨S_, .i32⟩
  | 26 => ⟨S1024, .i32⟩
  | 27 => ⟨S1024, .i1⟩
  | 28 => ⟨S_, .i32⟩
  | 29 => ⟨S1024, .i32⟩
  | 30 => ⟨S1024, .i32⟩
  | 31 => ⟨S1024, .i32⟩
  | 32 => ⟨S1024x1, .i32⟩
  | 33 => ⟨S1024, .i32⟩
  | 34 => ⟨S_, .i32⟩
  | 35 => ⟨S1024, .i32⟩
  | 36 => ⟨S1024, .i1⟩
  | 37 => ⟨S_, .i32⟩
  | 38 => ⟨S1024, .i32⟩
  | 39 => ⟨S1024, .i32⟩
  | 40 => ⟨S1024, .i32⟩
  | 41 => ⟨S1024x1, .i32⟩
  | 42 => ⟨S1024, .i32⟩
  | 43 => ⟨S_, .f32⟩
  | 44 => ⟨S1024, .f32⟩
  | 45 => ⟨S_, .f32⟩
  | 46 => ⟨S1024, .f32⟩
  | 47 => ⟨S1024, .f32⟩
  | 48 => ⟨S1024x1, .f32⟩
  | 49 => ⟨S1024x100, .f32⟩
  | 50 => ⟨S1024x100, .f32⟩
  | 51 => ⟨S1024x100, .f32⟩
  | 52 => ⟨S_, .f32⟩
  | 53 => ⟨S1024, .f32⟩
  | 54 => ⟨S1024x1, .f32⟩
  | 55 => ⟨S1024x1, .f32⟩
  | 56 => ⟨S1024x100, .f32⟩
  | 57 => ⟨S1024x100, .f32⟩
  | 58 => ⟨S1024x1, .i32⟩
  | 59 => ⟨S_, .i32⟩
  | 60 => ⟨S1024x1, .i32⟩
  | 61 => ⟨S1024x1, .i1⟩
  | 62 => ⟨S_, .i32⟩
  | 63 => ⟨S1024x1, .i32⟩
  | 64 => ⟨S1024x1, .i32⟩
  | 65 => ⟨S1024x1, .i32⟩
  | 66 => ⟨S1024x1x1, .i32⟩
  | 67 => ⟨S1, .i32⟩
  | 68 => ⟨S_, .i32⟩
  | 69 => ⟨S1024x1x1, .i32⟩
  | 70 => ⟨S1024x1x1, .i1⟩
  | 71 => ⟨S1x1x1, .i32⟩
  | 72 => ⟨S1024x1x1, .i32⟩
  | 73 => ⟨S1024x1x1, .i1⟩
  | 74 => ⟨S1024x1x1, .i1⟩
  | 75 => ⟨S_, .i1⟩
  | 76 => ⟨S1024x1, .i1⟩
  | 77 => ⟨S1024x1, .f32⟩
  | 78 => ⟨S_, .f32⟩
  | 79 => ⟨S1024x1, .f32⟩
  | 80 => ⟨S1024x1, .f32⟩
  | 81 => ⟨S1024, .f32⟩
  | 82 => ⟨S1024, .f32⟩
  | 83 => ⟨S_, .i32⟩
  | 84 => ⟨S1024, .i32⟩
  | 85 => ⟨S1024, .i1⟩
  | 86 => ⟨S_, .i32⟩
  | 87 => ⟨S1024, .i32⟩
  | 88 => ⟨S1024, .i32⟩
  | 89 => ⟨S1024, .i32⟩
  | 90 => ⟨S1024x1, .i32⟩
  | 91 => ⟨S1024, .f32⟩
  | 92 => ⟨S1024, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S1024, .f32⟩
  | 100 => ⟨S_, .f32⟩
  | 101 => ⟨S1024, .f32⟩
  | 102 => ⟨S1024, .f32⟩
  | 103 => ⟨S1024x1, .f32⟩
  | 104 => ⟨S1024x50, .f32⟩
  | 105 => ⟨S1024x50, .f32⟩
  | 106 => ⟨S1024x50, .f32⟩
  | 107 => ⟨S_, .f32⟩
  | 108 => ⟨S1024, .f32⟩
  | 109 => ⟨S1024x1, .f32⟩
  | 110 => ⟨S1024x1, .f32⟩
  | 111 => ⟨S1024x50, .f32⟩
  | 112 => ⟨S1024x50, .f32⟩
  | 113 => ⟨S1024x1, .i32⟩
  | 114 => ⟨S_, .i32⟩
  | 115 => ⟨S1024x1, .i32⟩
  | 116 => ⟨S1024x1, .i1⟩
  | 117 => ⟨S_, .i32⟩
  | 118 => ⟨S1024x1, .i32⟩
  | 119 => ⟨S1024x1, .i32⟩
  | 120 => ⟨S1024x1, .i32⟩
  | 121 => ⟨S1024x1x1, .i32⟩
  | 122 => ⟨S1, .i32⟩
  | 123 => ⟨S_, .i32⟩
  | 124 => ⟨S1024x1x1, .i32⟩
  | 125 => ⟨S1024x1x1, .i1⟩
  | 126 => ⟨S1x1x1, .i32⟩
  | 127 => ⟨S1024x1x1, .i32⟩
  | _ => ⟨S1024x512x14x14, .f32⟩

abbrev hbmTy0_1 (i : Nat) : BufTy := match i % 128 with
  | 0 => ⟨S1024x1x1, .i1⟩
  | 1 => ⟨S1024x1x1, .i1⟩
  | 2 => ⟨S_, .i1⟩
  | 3 => ⟨S1024x1, .i1⟩
  | 4 => ⟨S1024x1, .f32⟩
  | 5 => ⟨S_, .f32⟩
  | 6 => ⟨S1024x1, .f32⟩
  | 7 => ⟨S1024x1, .f32⟩
  | 8 => ⟨S1024, .f32⟩
  | 9 => ⟨S1024, .f32⟩
  | 10 => ⟨S_, .i32⟩
  | 11 => ⟨S1024, .i32⟩
  | 12 => ⟨S1024, .i1⟩
  | 13 => ⟨S_, .i32⟩
  | 14 => ⟨S1024, .i32⟩
  | 15 => ⟨S1024, .i32⟩
  | 16 => ⟨S1024, .i32⟩
  | 17 => ⟨S1024x1, .i32⟩
  | 18 => ⟨S1024, .f32⟩
  | 19 => ⟨S1024, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S1024x512x14x14, .f32⟩

abbrev hbmTy (i : Nat) : BufTy := match i / 128 with
  | 0 => hbmTy0_0 i
  | 1 => hbmTy0_1 i
  | _ => ⟨S1024x512x14x14, .f32⟩

abbrev bufTy : (tb : Table) → Fin (tcTables nBuf tb) → BufTy
  | .hbm, ⟨i, _⟩ => hbmTy i
  | .local _ .vmem, ⟨0, _⟩ => ⟨S64x256x196, .f32⟩
  | .local _ .vmem, ⟨1, _⟩ => ⟨S64x256x196, .f32⟩
  | .local _ .vmem, ⟨2, _⟩ => ⟨S64x256, .f32⟩
  | .local _ .vmem, ⟨3, _⟩ => ⟨S64x256, .f32⟩
  | .local _ .vmem, ⟨4, _⟩ => ⟨S64x512x49, .f32⟩
  | .local _ .vmem, ⟨5, _⟩ => ⟨S64x512x49, .f32⟩
  | .local _ .vmem, ⟨6, _⟩ => ⟨S64x512, .f32⟩
  | .local _ .vmem, ⟨7, _⟩ => ⟨S64x512, .f32⟩
  | _, _ => ⟨S1024x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_call0_cst_0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_cst_1 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_v28 : Ref sig .tc := ⟨.hbm, 57, rfl⟩
abbrev main_v29 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_cst : Ref sig .tc := ⟨.hbm, 78, rfl⟩
abbrev main_call1_v14 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_c_3 : Ref sig .tc := ⟨.hbm, 83, rfl⟩
abbrev main_v33 : Ref sig .tc := ⟨.hbm, 84, rfl⟩
abbrev main_v34 : Ref sig .tc := ⟨.hbm, 85, rfl⟩
abbrev main_c_4 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst : Ref sig .tc := ⟨.hbm, 93, rfl⟩
abbrev main_v41 : Ref sig .tc := ⟨.hbm, 94, rfl⟩
abbrev main_cst_5 : Ref sig .tc := ⟨.hbm, 95, rfl⟩
abbrev main_v42 : Ref sig .tc := ⟨.hbm, 96, rfl⟩
abbrev main_v43 : Ref sig .tc := ⟨.hbm, 97, rfl⟩
abbrev main_call2_cst : Ref sig .tc := ⟨.hbm, 98, rfl⟩
abbrev main_call2_v0 : Ref sig .tc := ⟨.hbm, 99, rfl⟩
abbrev main_call2_cst_0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_cst_1 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_v44 : Ref sig .tc := ⟨.hbm, 112, rfl⟩
abbrev main_v45 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_cst : Ref sig .tc := ⟨.hbm, 133, rfl⟩
abbrev main_call3_v14 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_c_6 : Ref sig .tc := ⟨.hbm, 138, rfl⟩
abbrev main_v49 : Ref sig .tc := ⟨.hbm, 139, rfl⟩
abbrev main_v50 : Ref sig .tc := ⟨.hbm, 140, rfl⟩
abbrev main_c_7 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_cst_8 : Ref sig .tc := ⟨.hbm, 148, rfl⟩
abbrev main_v57 : Ref sig .tc := ⟨.hbm, 149, rfl⟩
abbrev main_cst_9 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x256x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S64x512x49 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  shapeCasts_S1024x512x14x14_S1024x512x196 : S1024x512x14x14.ShapeCasts S1024x512x196
  inb_S64x256x196_S64x256x196_0_0_0 : ∀ a, (![0, 0, 0] : Fin 3 → Nat) a + S64x256x196.size a ≤ S64x256x196.size a
  h_S64x256x196 : 0 < S64x256x196.numel
  shapeCasts_S64x256x196_S64x256x196 : S64x256x196.ShapeCasts S64x256x196
  reduces_S64x256x196_S64x256 : S64x256x196.Reduces [2] S64x256
  inb_S64x256_S64x256_0_0 : ∀ a, (![0, 0] : Fin 2 → Nat) a + S64x256.size a ≤ S64x256.size a
  h_S64x256 : 0 < S64x256.numel
  shapeCasts_S1024x1024x7x7_S1024x1024x49 : S1024x1024x7x7.ShapeCasts S1024x1024x49
  inb_S64x512x49_S64x512x49_0_0_0 : ∀ a, (![0, 0, 0] : Fin 3 → Nat) a + S64x512x49.size a ≤ S64x512x49.size a
  h_S64x512x49 : 0 < S64x512x49.numel
  shapeCasts_S64x512x49_S64x512x49 : S64x512x49.ShapeCasts S64x512x49
  reduces_S64x512x49_S64x512 : S64x512x49.Reduces [2] S64x512
  inb_S64x512_S64x512_0_0 : ∀ a, (![0, 0] : Fin 2 → Nat) a + S64x512.size a ≤ S64x512.size a
  h_S64x512 : 0 < S64x512.numel
  transposes_S100x512_S512x100_1_0 : S100x512.Transposes [1, 0] S512x100
  bcast_S100_S1x100_1 : S100.BroadcastsInDim S1x100 (![1] : Fin 1 → Fin S1x100.rank)
  bcast_S1x100_S1024x100_0_1 : S1x100.BroadcastsInDim S1024x100 (![0, 1] : Fin 2 → Fin S1024x100.rank)
  transposes_S50x1024_S1024x50_1_0 : S50x1024.Transposes [1, 0] S1024x50
  bcast_S50_S1x50_1 : S50.BroadcastsInDim S1x50 (![1] : Fin 1 → Fin S1x50.rank)
  bcast_S1x50_S1024x50_0_1 : S1x50.BroadcastsInDim S1024x50 (![0, 1] : Fin 2 → Fin S1024x50.rank)
  bcast_S_S1024 : S_.BroadcastsInDim S1024 (![] : Fin 0 → Fin S1024.rank)
  bcast_S1024_S1024x1_0 : S1024.BroadcastsInDim S1024x1 (![0] : Fin 1 → Fin S1024x1.rank)
  reducesTo_S1024x100_S1024_d1 : S1024x100.ReducesTo [1] S1024
  h_S_ : 0 < S_.numel
  bcast_S1024x1_S1024x100_0_1 : S1024x1.BroadcastsInDim S1024x100 (![0, 1] : Fin 2 → Fin S1024x100.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  reducesTo_S1024x50_S1024_d1 : S1024x50.ReducesTo [1] S1024
  bcast_S1024x1_S1024x50_0_1 : S1024x1.BroadcastsInDim S1024x50 (![0, 1] : Fin 2 → Fin S1024x50.rank)
  dot_S1024x512_S512x100_S1024x100_1_0_0_1_n_n_wf : DotDims.WF S1024x512 S512x100 S1024x100 [1] [0] [0] [1] [] []
  dot_S1024x1024_S1024x50_S1024x50_1_0_0_1_n_n_wf : DotDims.WF S1024x1024 S1024x50 S1024x50 [1] [0] [0] [1] [] []
  gather_S1000_S1024x1_S1024_n_0_n_n_0_1_1_wf : GatherDims.WF S1000 S1024x1 S1024 [] [0] [] [0] [] 1 ![1]
  gather_S1024x100_S1024x1x1_S1024x1_n_1_0_0_1_2_11_wf : GatherDims.WF S1024x100 S1024x1x1 S1024x1 [] [1] [0] [1] [0] 2 ![1, 1]
  gather_S100_S1024x1_S1024_n_0_n_n_0_1_1_wf : GatherDims.WF S100 S1024x1 S1024 [] [0] [] [0] [] 1 ![1]
  gather_S1024x50_S1024x1x1_S1024x1_n_1_0_0_1_2_11_wf : GatherDims.WF S1024x50 S1024x1x1 S1024x1 [] [1] [0] [1] [0] 2 ![1, 1]
  gather_S50_S1024x1_S1024_n_0_n_n_0_1_1_wf : GatherDims.WF S50 S1024x1 S1024 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x196.size a ≤ S1024x512x196.size a
  hwx0_0 : ∀ i : grid0.Coords, EltTy.bits .f32 = 32 ∨ (Rect.block (s := S1024x512x196) S64x256x196.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S1024x512.size a
  hwx0_1 : ∀ i : grid0.Coords, EltTy.bits .f32 = 32 ∨ (Rect.block (s := S1024x512) S64x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512x49.size a ≤ S1024x1024x49.size a
  hwx1_0 : ∀ i : grid1.Coords, EltTy.bits .f32 = 32 ∨ (Rect.block (s := S1024x1024x49) S64x512x49.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S1024x1024.size a
  hwx1_1 : ∀ i : grid1.Coords, EltTy.bits .f32 = 32 ∨ (Rect.block (s := S1024x1024) S64x512.size (cc1_transform_1 i) (hinb1_1 i)).WholeWords (EltTy.packing .f32)

variable [Facts₀]

def dot_S1024x512_S512x100_S1024x100_1_0_0_1_n_n : DotDims S1024x512 S512x100 S1024x100 where
  lhsContracting := [1]
  rhsContracting := [0]
  lhsNonContracting := [0]
  rhsNonContracting := [1]
  lhsBatch := []
  rhsBatch := []
  wf := dot_S1024x512_S512x100_S1024x100_1_0_0_1_n_n_wf
def dot_S1024x1024_S1024x50_S1024x50_1_0_0_1_n_n : DotDims S1024x1024 S1024x50 S1024x50 where
  lhsContracting := [1]
  rhsContracting := [0]
  lhsNonContracting := [0]
  rhsNonContracting := [1]
  lhsBatch := []
  rhsBatch := []
  wf := dot_S1024x1024_S1024x50_S1024x50_1_0_0_1_n_n_wf
def gather_S1000_S1024x1_S1024_n_0_n_n_0_1_1 : GatherDims S1000 S1024x1 S1024 where
  offsetDims := []
  collapsedSliceDims := [0]
  operandBatchingDims := []
  startIndicesBatchingDims := []
  startIndexMap := [0]
  indexVectorDim := 1
  sliceSizes := ![1]
  wf := gather_S1000_S1024x1_S1024_n_0_n_n_0_1_1_wf
def gather_S1024x100_S1024x1x1_S1024x1_n_1_0_0_1_2_11 : GatherDims S1024x100 S1024x1x1 S1024x1 where
  offsetDims := []
  collapsedSliceDims := [1]
  operandBatchingDims := [0]
  startIndicesBatchingDims := [0]
  startIndexMap := [1]
  indexVectorDim := 2
  sliceSizes := ![1, 1]
  wf := gather_S1024x100_S1024x1x1_S1024x1_n_1_0_0_1_2_11_wf
def gather_S100_S1024x1_S1024_n_0_n_n_0_1_1 : GatherDims S100 S1024x1 S1024 where
  offsetDims := []
  collapsedSliceDims := [0]
  operandBatchingDims := []
  startIndicesBatchingDims := []
  startIndexMap := [0]
  indexVectorDim := 1
  sliceSizes := ![1]
  wf := gather_S100_S1024x1_S1024_n_0_n_n_0_1_1_wf
def gather_S1024x50_S1024x1x1_S1024x1_n_1_0_0_1_2_11 : GatherDims S1024x50 S1024x1x1 S1024x1 where
  offsetDims := []
  collapsedSliceDims := [1]
  operandBatchingDims := [0]
  startIndicesBatchingDims := [0]
  startIndexMap := [1]
  indexVectorDim := 2
  sliceSizes := ![1, 1]
  wf := gather_S1024x50_S1024x1x1_S1024x1_n_1_0_0_1_2_11_wf
def gather_S50_S1024x1_S1024_n_0_n_n_0_1_1 : GatherDims S50 S1024x1 S1024 where
  offsetDims := []
  collapsedSliceDims := [0]
  operandBatchingDims := []
  startIndicesBatchingDims := []
  startIndexMap := [0]
  indexVectorDim := 1
  sliceSizes := ![1]
  wf := gather_S50_S1024x1_S1024_n_0_n_n_0_1_1_wf

abbrev win0_0 : Pipeline.Window sig grid0 :=
  Pipeline.Window.ofSpec (Memref.whole main_v0) S64x256x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S64x512x49.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1024x512x14x14 : Shape := ⟨4, ![1024, 512, 14, 14]⟩
abbrev S1024x1024x7x7 : Shape := ⟨4, ![1024, 1024, 7, 7]⟩
abbrev S100x512 : Shape := ⟨2, ![100, 512]⟩
abbrev S100 : Shape := ⟨1, ![100]⟩
abbrev S50x1024 : Shape := ⟨2, ![50, 1024]⟩
abbrev S50 : Shape := ⟨1, ![50]⟩
abbrev S1000 : Shape := ⟨1, ![1000]⟩
abbrev S1024 : Shape := ⟨1, ![1024]⟩
abbrev S_ : Shape := ⟨0, ![]⟩
abbrev S1024x512 : Shape := ⟨2, ![1024, 512]⟩
abbrev S512x100 : Shape := ⟨2, ![512, 100]⟩
abbrev S1024x100 : Shape := ⟨2, ![1024, 100]⟩
abbrev S1x100 : Shape := ⟨2, ![1, 100]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x1024 : Shape := ⟨2, ![1024, 1024]⟩
abbrev S1024x50 : Shape := ⟨2, ![1024, 50]⟩
abbrev S1x50 : Shape := ⟨2, ![1, 50]⟩

abbrev nBuf : Space → Nat
  | .hbm => 160
  | .vmem => 0
  | .smem => 0
  | _ => 0

abbrev hbmTy0_0 (i : Nat) : BufTy := match i % 128 with
  | 0 => ⟨S1024x512x14x14, .f32⟩
  | 1 => ⟨S1024x1024x7x7, .f32⟩
  | 2 => ⟨S100x512, .f32⟩
  | 3 => ⟨S100, .f32⟩
  | 4 => ⟨S50x1024, .f32⟩
  | 5 => ⟨S50, .f32⟩
  | 6 => ⟨S1000, .i32⟩
  | 7 => ⟨S1000, .i32⟩
  | 8 => ⟨S100, .f32⟩
  | 9 => ⟨S50, .f32⟩
  | 10 => ⟨S1024, .i32⟩
  | 11 => ⟨S_, .f32⟩
  | 12 => ⟨S1024x512, .f32⟩
  | 13 => ⟨S_, .f32⟩
  | 14 => ⟨S1024x512, .f32⟩
  | 15 => ⟨S1024x512, .f32⟩
  | 16 => ⟨S512x100, .f32⟩
  | 17 => ⟨S1024x100, .f32⟩
  | 18 => ⟨S1x100, .f32⟩
  | 19 => ⟨S1024x100, .f32⟩
  | 20 => ⟨S1024x100, .f32⟩
  | 21 => ⟨S_, .i32⟩
  | 22 => ⟨S1024, .i32⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S1024, .i32⟩
  | 30 => ⟨S_, .f32⟩
  | 31 => ⟨S1024, .f32⟩
  | 32 => ⟨S_, .f32⟩
  | 33 => ⟨S1024, .f32⟩
  | 34 => ⟨S1024, .f32⟩
  | 35 => ⟨S1024x1, .f32⟩
  | 36 => ⟨S1024x100, .f32⟩
  | 37 => ⟨S1024x100, .f32⟩
  | 38 => ⟨S1024x100, .f32⟩
  | 39 => ⟨S_, .f32⟩
  | 40 => ⟨S1024, .f32⟩
  | 41 => ⟨S1024x1, .f32⟩
  | 42 => ⟨S1024x1, .f32⟩
  | 43 => ⟨S1024x100, .f32⟩
  | 44 => ⟨S1024x100, .f32⟩
  | 45 => ⟨S1024x1, .i32⟩
  | 46 => ⟨S_, .i32⟩
  | 47 => ⟨S1024x1, .i32⟩
  | 48 => ⟨S1024x1, .i1⟩
  | 49 => ⟨S_, .i32⟩
  | 50 => ⟨S1024x1, .i32⟩
  | 51 => ⟨S1024x1, .i32⟩
  | 52 => ⟨S1024x1, .i32⟩
  | 53 => ⟨S1024x1x1, .i32⟩
  | 54 => ⟨S1, .i32⟩
  | 55 => ⟨S_, .i32⟩
  | 56 => ⟨S1024x1x1, .i32⟩
  | 57 => ⟨S1024x1x1, .i1⟩
  | 58 => ⟨S1x1x1, .i32⟩
  | 59 => ⟨S1024x1x1, .i32⟩
  | 60 => ⟨S1024x1x1, .i1⟩
  | 61 => ⟨S1024x1x1, .i1⟩
  | 62 => ⟨S_, .i1⟩
  | 63 => ⟨S1024x1, .i1⟩
  | 64 => ⟨S1024x1, .f32⟩
  | 65 => ⟨S_, .f32⟩
  | 66 => ⟨S1024x1, .f32⟩
  | 67 => ⟨S1024x1, .f32⟩
  | 68 => ⟨S1024, .f32⟩
  | 69 => ⟨S1024, .f32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1024, .f32⟩
  | 79 => ⟨S1024, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1024x1024, .f32⟩
  | 87 => ⟨S_, .f32⟩
  | 88 => ⟨S1024x1024, .f32⟩
  | 89 => ⟨S1024x1024, .f32⟩
  | 90 => ⟨S1024x50, .f32⟩
  | 91 => ⟨S1024x50, .f32⟩
  | 92 => ⟨S1x50, .f32⟩
  | 93 => ⟨S1024x50, .f32⟩
  | 94 => ⟨S1024x50, .f32⟩
  | 95 => ⟨S_, .i32⟩
  | 96 => ⟨S1024, .i32⟩
  | 97 => ⟨S1024, .i1⟩
  | 98 => ⟨S_, .i32⟩
  | 99 => ⟨S1024, .i32⟩
  | 100 => ⟨S1024, .i32⟩
  | 101 => ⟨S1024, .i32⟩
  | 102 => ⟨S1024x1, .i32⟩
  | 103 => ⟨S1024, .i32⟩
  | 104 => ⟨S_, .f32⟩
  | 105 => ⟨S1024, .f32⟩
  | 106 => ⟨S_, .f32⟩
  | 107 => ⟨S1024, .f32⟩
  | 108 => ⟨S1024, .f32⟩
  | 109 => ⟨S1024x1, .f32⟩
  | 110 => ⟨S1024x50, .f32⟩
  | 111 => ⟨S1024x50, .f32⟩
  | 112 => ⟨S1024x50, .f32⟩
  | 113 => ⟨S_, .f32⟩
  | 114 => ⟨S1024, .f32⟩
  | 115 => ⟨S1024x1, .f32⟩
  | 116 => ⟨S1024x1, .f32⟩
  | 117 => ⟨S1024x50, .f32⟩
  | 118 => ⟨S1024x50, .f32⟩
  | 119 => ⟨S1024x1, .i32⟩
  | 120 => ⟨S_, .i32⟩
  | 121 => ⟨S1024x1, .i32⟩
  | 122 => ⟨S1024x1, .i1⟩
  | 123 => ⟨S_, .i32⟩
  | 124 => ⟨S1024x1, .i32⟩
  | 125 => ⟨S1024x1, .i32⟩
  | 126 => ⟨S1024x1, .i32⟩
  | 127 => ⟨S1024x1x1, .i32⟩
  | _ => ⟨S1024x512x14x14, .f32⟩

abbrev hbmTy0_1 (i : Nat) : BufTy := match i % 128 with
  | 0 => ⟨S1, .i32⟩
  | 1 => ⟨S_, .i32⟩
  | 2 => ⟨S1024x1x1, .i32⟩
  | 3 => ⟨S1024x1x1, .i1⟩
  | 4 => ⟨S1x1x1, .i32⟩
  | 5 => ⟨S1024x1x1, .i32⟩
  | 6 => ⟨S1024x1x1, .i1⟩
  | 7 => ⟨S1024x1x1, .i1⟩
  | 8 => ⟨S_, .i1⟩
  | 9 => ⟨S1024x1, .i1⟩
  | 10 => ⟨S1024x1, .f32⟩
  | 11 => ⟨S_, .f32⟩
  | 12 => ⟨S1024x1, .f32⟩
  | 13 => ⟨S1024x1, .f32⟩
  | 14 => ⟨S1024, .f32⟩
  | 15 => ⟨S1024, .f32⟩
  | 16 => ⟨S_, .i32⟩
  | 17 => ⟨S1024, .i32⟩
  | 18 => ⟨S1024, .i1⟩
  | 19 => ⟨S_, .i32⟩
  | 20 => ⟨S1024, .i32⟩
  | 21 => ⟨S1024, .i32⟩
  | 22 => ⟨S1024, .i32⟩
  | 23 => ⟨S1024x1, .i32⟩
  | 24 => ⟨S1024, .f32⟩
  | 25 => ⟨S1024, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | _ => ⟨S1024x512x14x14, .f32⟩

abbrev hbmTy (i : Nat) : BufTy := match i / 128 with
  | 0 => hbmTy0_0 i
  | 1 => hbmTy0_1 i
  | _ => ⟨S1024x512x14x14, .f32⟩

abbrev bufTy : (tb : Table) → Fin (tcTables nBuf tb) → BufTy
  | .hbm, ⟨i, _⟩ => hbmTy i
  | _, _ => ⟨S1024x512x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_call0_cst_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_cst_1 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_v15 : Ref sig .tc := ⟨.hbm, 44, rfl⟩
abbrev main_v16 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_c_2 : Ref sig .tc := ⟨.hbm, 70, rfl⟩
abbrev main_v20 : Ref sig .tc := ⟨.hbm, 71, rfl⟩
abbrev main_v21 : Ref sig .tc := ⟨.hbm, 72, rfl⟩
abbrev main_c_3 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_4 : Ref sig .tc := ⟨.hbm, 80, rfl⟩
abbrev main_v28 : Ref sig .tc := ⟨.hbm, 81, rfl⟩
abbrev main_cst_5 : Ref sig .tc := ⟨.hbm, 82, rfl⟩
abbrev main_v29 : Ref sig .tc := ⟨.hbm, 83, rfl⟩
abbrev main_v30 : Ref sig .tc := ⟨.hbm, 84, rfl⟩
abbrev main_cst_6 : Ref sig .tc := ⟨.hbm, 85, rfl⟩
abbrev main_v31 : Ref sig .tc := ⟨.hbm, 86, rfl⟩
abbrev main_cst_7 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_c_8 : Ref sig .tc := ⟨.hbm, 95, rfl⟩
abbrev main_v39 : Ref sig .tc := ⟨.hbm, 96, rfl⟩
abbrev main_v40 : Ref sig .tc := ⟨.hbm, 97, rfl⟩
abbrev main_c_9 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_call2_cst : Ref sig .tc := ⟨.hbm, 104, rfl⟩
abbrev main_call2_v0 : Ref sig .tc := ⟨.hbm, 105, rfl⟩
abbrev main_call2_cst_0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_cst_1 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_v46 : Ref sig .tc := ⟨.hbm, 118, rfl⟩
abbrev main_v47 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_cst : Ref sig .tc := ⟨.hbm, 139, rfl⟩
abbrev main_call3_v14 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_c_10 : Ref sig .tc := ⟨.hbm, 144, rfl⟩
abbrev main_v51 : Ref sig .tc := ⟨.hbm, 145, rfl⟩
abbrev main_v52 : Ref sig .tc := ⟨.hbm, 146, rfl⟩
abbrev main_c_11 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_cst_12 : Ref sig .tc := ⟨.hbm, 154, rfl⟩
abbrev main_v59 : Ref sig .tc := ⟨.hbm, 155, rfl⟩
abbrev main_cst_13 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩

abbrev nD : Nat := 1
abbrev τ : Topo := Topo.v7x

variable {F : FTy → Type} [FloatOps F]

class Facts₀ : Prop where
  reducesTo_S1024x512x14x14_S1024x512_d2_3 : S1024x512x14x14.ReducesTo [2, 3] S1024x512
  h_S_ : 0 < S_.numel
  bcast_S_S1024x512 : S_.BroadcastsInDim S1024x512 (![] : Fin 0 → Fin S1024x512.rank)
  transposes_S100x512_S512x100_1_0 : S100x512.Transposes [1, 0] S512x100
  bcast_S100_S1x100_1 : S100.BroadcastsInDim S1x100 (![1] : Fin 1 → Fin S1x100.rank)
  bcast_S1x100_S1024x100_0_1 : S1x100.BroadcastsInDim S1024x100 (![0, 1] : Fin 2 → Fin S1024x100.rank)
  bcast_S_S1024 : S_.BroadcastsInDim S1024 (![] : Fin 0 → Fin S1024.rank)
  bcast_S1024_S1024x1_0 : S1024.BroadcastsInDim S1024x1 (![0] : Fin 1 → Fin S1024x1.rank)
  reducesTo_S1024x100_S1024_d1 : S1024x100.ReducesTo [1] S1024
  bcast_S1024x1_S1024x100_0_1 : S1024x1.BroadcastsInDim S1024x100 (![0, 1] : Fin 2 → Fin S1024x100.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  reducesTo_S1024x1024x7x7_S1024x1024_d2_3 : S1024x1024x7x7.ReducesTo [2, 3] S1024x1024
  bcast_S_S1024x1024 : S_.BroadcastsInDim S1024x1024 (![] : Fin 0 → Fin S1024x1024.rank)
  transposes_S50x1024_S1024x50_1_0 : S50x1024.Transposes [1, 0] S1024x50
  bcast_S50_S1x50_1 : S50.BroadcastsInDim S1x50 (![1] : Fin 1 → Fin S1x50.rank)
  bcast_S1x50_S1024x50_0_1 : S1x50.BroadcastsInDim S1024x50 (![0, 1] : Fin 2 → Fin S1024x50.rank)
  reducesTo_S1024x50_S1024_d1 : S1024x50.ReducesTo [1] S1024
  bcast_S1024x1_S1024x50_0_1 : S1024x1.BroadcastsInDim S1024x50 (![0, 1] : Fin 2 → Fin S1024x50.rank)
  dot_S1024x512_S512x100_S1024x100_1_0_0_1_n_n_wf : DotDims.WF S1024x512 S512x100 S1024x100 [1] [0] [0] [1] [] []
  gather_S1000_S1024x1_S1024_n_0_n_n_0_1_1_wf : GatherDims.WF S1000 S1024x1 S1024 [] [0] [] [0] [] 1 ![1]
  gather_S1024x100_S1024x1x1_S1024x1_n_1_0_0_1_2_11_wf : GatherDims.WF S1024x100 S1024x1x1 S1024x1 [] [1] [0] [1] [0] 2 ![1, 1]
  gather_S100_S1024x1_S1024_n_0_n_n_0_1_1_wf : GatherDims.WF S100 S1024x1 S1024 [] [0] [] [0] [] 1 ![1]
  dot_S1024x1024_S1024x50_S1024x50_1_0_0_1_n_n_wf : DotDims.WF S1024x1024 S1024x50 S1024x50 [1] [0] [0] [1] [] []
  gather_S1024x50_S1024x1x1_S1024x1_n_1_0_0_1_2_11_wf : GatherDims.WF S1024x50 S1024x1x1 S1024x1 [] [1] [0] [1] [0] 2 ![1, 1]
  gather_S50_S1024x1_S1024_n_0_n_n_0_1_1_wf : GatherDims.WF S50 S1024x1 S1024 [] [0] [] [0] [] 1 ![1]

variable [Facts₀]

def dot_S1024x512_S512x100_S1024x100_1_0_0_1_n_n : DotDims S1024x512 S512x100 S1024x100 where
  lhsContracting := [1]
  rhsContracting := [0]
  lhsNonContracting := [0]
  rhsNonContracting := [1]
  lhsBatch := []
  rhsBatch := []
  wf := dot_S1024x512_S512x100_S1024x100_1_0_0_1_n_n_wf
def gather_S1000_S1024x1_S1024_n_0_n_n_0_1_1 : GatherDims S1000 S1024x1 S1024 where
  offsetDims := []
  collapsedSliceDims := [0]
  operandBatchingDims := []
  startIndicesBatchingDims := []
  startIndexMap := [0]
  indexVectorDim := 1
  sliceSizes := ![1]
  wf := gather_S1000_S1024x1_S1024_n_0_n_n_0_1_1_wf
def gather_S1024x100_S1024x1x1_S1024x1_n_1_0_0_1_2_11 : GatherDims S1024x100 S1024x1x1 S1024x1 where
  offsetDims := []
  collapsedSliceDims := [1]
  operandBatchingDims := [0]
  startIndicesBatchingDims := [0]
  startIndexMap := [1]
  indexVectorDim := 2
  sliceSizes := ![1, 1]
  wf := gather_S1024x100_S1024x1x1_S1024x1_n_1_0_0_1_2_11_wf
def gather_S100_S1024x1_S1024_n_0_n_n_0_1_1 : GatherDims S100 S1024x1 S1024 where
  offsetDims := []
  collapsedSliceDims := [0]
  operandBatchingDims := []
  startIndicesBatchingDims := []
  startIndexMap := [0]
  indexVectorDim := 1
  sliceSizes := ![1]
  wf := gather_S100_S1024x1_S1024_n_0_n_n_0_1_1_wf
def dot_S1024x1024_S1024x50_S1024x50_1_0_0_1_n_n : DotDims S1024x1024 S1024x50 S1024x50 where
  lhsContracting := [1]
  rhsContracting := [0]
  lhsNonContracting := [0]
  rhsNonContracting := [1]
  lhsBatch := []
  rhsBatch := []
  wf := dot_S1024x1024_S1024x50_S1024x50_1_0_0_1_n_n_wf
def gather_S1024x50_S1024x1x1_S1024x1_n_1_0_0_1_2_11 : GatherDims S1024x50 S1024x1x1 S1024x1 where
  offsetDims := []
  collapsedSliceDims := [1]
  operandBatchingDims := [0]
  startIndicesBatchingDims := [0]
  startIndexMap := [1]
  indexVectorDim := 2
  sliceSizes := ![1, 1]
  wf := gather_S1024x50_S1024x1x1_S1024x1_n_1_0_0_1_2_11_wf
def gather_S50_S1024x1_S1024_n_0_n_n_0_1_1 : GatherDims S50 S1024x1 S1024 where
  offsetDims := []
  collapsedSliceDims := [0]
  operandBatchingDims := []
  startIndicesBatchingDims := []
  startIndexMap := [0]
  indexVectorDim := 1
  sliceSizes := ![1]
  wf := gather_S50_S1024x1_S1024_n_0_n_n_0_1_1_wf

class Facts : Prop extends Facts₀ where

variable [Facts]
-- ==== Proof.ClusterLoss.lean ====
/-
  What both programs do AFTER the global average pooling, as one function of the two pooled feature matrices and of
  the other nine arguments: per head, logits = pooled · Wᵀ + b; the fine class of every row mapped to its cluster
  through the lookup table (a negative class id wrapped once by 1000); the row-wise log-softmax of the logits; the
  log-probability of each row at its own cluster (a negative cluster id wrapped once by the number of clusters, the
  entry kept only where the column is in range); the cluster weights gathered per row; and the weighted cross entropy
  Σ w·(-log p) / Σ w. The result is the sum of the two heads' cross entropies. Every operation is read on the extended
  reals. Also the pooled feature matrices as the reference computes them: the sum over the two spatial axes, from
  zero, divided by the number of positions.
-/
import proofs.«113053_j23862838297190_1_alg».proof.Proof.Gen.ReferenceIdeal
import Idealize.ShloMosaic.PureOps.Ideal

noncomputable section

namespace Cert.ClusterLoss

open Cert.ReferenceIdeal Cert.ReferenceIdeal.Facts₀ Idealize.ShloMosaic

/-! ## The pooled features, as the reference computes them -/

/-- The mean over the 14 × 14 positions: the sum over the two trailing axes, from zero, divided by 196. -/
def pooled0 (feat : FVec Ideal S1024x512x14x14 .f32) : FVec Ideal S1024x512 .f32 :=
  Host.divf (F := Ideal) (Host.reduceAdd (F := Ideal) feat (constant (F := Ideal) S_ .f32 0x00000000#32) reducesTo_S1024x512x14x14_S1024x512_d2_3 h_S_)
    (broadcastInDim S1024x512 ![] bcast_S_S1024x512 (constant (F := Ideal) S_ .f32 0x43440000#32))

/-- The mean over the 7 × 7 positions: the sum over the two trailing axes, from zero, divided by 49. -/
def pooled1 (feat : FVec Ideal S1024x1024x7x7 .f32) : FVec Ideal S1024x1024 .f32 :=
  Host.divf (F := Ideal) (Host.reduceAdd (F := Ideal) feat (constant (F := Ideal) S_ .f32 0x00000000#32) reducesTo_S1024x1024x7x7_S1024x1024_d2_3 h_S_)
    (broadcastInDim S1024x1024 ![] bcast_S_S1024x1024 (constant (F := Ideal) S_ .f32 0x42440000#32))

/-! ## The class → cluster remap -/

/-- Every row's cluster id: the lookup table gathered at the row's class id, a negative id moved up by 1000 once. -/
def cluster (lut : IVec S1000 32) (target : IVec S1024 32) : IVec S1024 32 :=
  Host.gather gather_S1000_S1024x1_S1024_n_0_n_n_0_1_1 lut (broadcastInDim S1024x1 ![0] bcast_S1024_S1024x1_0
    (select (cmpi .slt target (broadcastInDim S1024 ![] bcast_S_S1024 (constantI S_ 32 0#32)))
      (addi target (broadcastInDim S1024 ![] bcast_S_S1024 (constantI S_ 32 1000#32))) target))

/-! ## Head 0: 100 clusters over 512 pooled channels -/

/-- The logits: the pooled features times the transposed classifier matrix, plus the bias on every row. -/
def logits0 (p : FVec Ideal S1024x512 .f32) (W : FVec Ideal S100x512 .f32) (b : FVec Ideal S100 .f32) : FVec Ideal S1024x100 .f32 :=
  addf (Host.dotGeneral (F := Ideal) dot_S1024x512_S512x100_S1024x100_1_0_0_1_n_n none p (transpose S512x100 [1, 0] W transposes_S100x512_S512x100_1_0))
    (broadcastInDim S1024x100 ![0, 1] bcast_S1x100_S1024x100_0_1 (broadcastInDim S1x100 ![1] bcast_S100_S1x100_1 b))

/-- The logits minus their row maximum (the maximum taken from -∞). -/
def shifted0 (x : FVec Ideal S1024x100 .f32) : FVec Ideal S1024x100 .f32 :=
  subf x (broadcastInDim S1024x100 ![0, 1] bcast_S1024x1_S1024x100_0_1 (broadcastInDim S1024x1 ![0] bcast_S1024_S1024x1_0
    (maximumf (broadcastInDim S1024 ![] bcast_S_S1024 (constant (F := Ideal) S_ .f32 0xFF800000#32))
      (Host.reduce (FloatOps.maximumf (F := Ideal)) x (constant (F := Ideal) S_ .f32 0xFF800000#32) reducesTo_S1024x100_S1024_d1 h_S_))))

/-- The row-wise log-softmax: the shifted logits minus the logarithm of the row sum of their exponentials. -/
def logSoftmax0 (x : FVec Ideal S1024x100 .f32) : FVec Ideal S1024x100 .f32 :=
  subf (shifted0 x) (broadcastInDim S1024x100 ![0, 1] bcast_S1024x1_S1024x100_0_1
    (Host.log (F := Ideal) (broadcastInDim S1024x1 ![0] bcast_S1024_S1024x1_0
      (Host.reduceAdd (F := Ideal) (Host.exp (F := Ideal) (shifted0 x)) (constant (F := Ideal) S_ .f32 0x00000000#32) reducesTo_S1024x100_S1024_d1 h_S_))))

/-- A cluster id read as a column index: a negative id is moved up by 100 once. -/
def column0 (t : IVec S1024 32) : IVec S1024x1x1 32 :=
  shapeCast S1024x1x1
    (select (cmpi .slt (broadcastInDim S1024x1 ![0] bcast_S1024_S1024x1_0 t) (broadcastInDim S1024x1 ![] bcast_S_S1024x1 (constantI S_ 32 0#32)))
      (addi (broadcastInDim S1024x1 ![0] bcast_S1024_S1024x1_0 t) (broadcastInDim S1024x1 ![] bcast_S_S1024x1 (constantI S_ 32 100#32)))
      (broadcastInDim S1024x1 ![0] bcast_S1024_S1024x1_0 t))
    shapeCasts_S1024x1_S1024x1x1

/-- Row r's log-probability at its own cluster's column: the entry where the column lies in 0 … 99, the NaN pattern
    elsewhere. -/
def picked0 (lp : FVec Ideal S1024x100 .f32) (t : IVec S1024 32) : FVec Ideal S1024x1 .f32 :=
  select
    (Host.reduce IntOp.andi
      (andi (cmpi .sge (column0 t) (broadcastInDim S1024x1x1 ![] bcast_S_S1024x1x1 (constantI S_ 32 0#32)))
        (cmpi .sle (column0 t) (broadcastInDim S1024x1x1 ![0, 1, 2] bcast_S1x1x1_S1024x1x1_0_1_2
          (broadcastInDim S1x1x1 ![2] bcast_S1_S1x1x1_2 (constantI S1 32 99#32)))))
      (constantI S_ 1 1#1) reducesTo_S1024x1x1_S1024x1_d2 h_S_)
    (Host.gather gather_S1024x100_S1024x1x1_S1024x1_n_1_0_0_1_2_11 lp (column0 t))
    (broadcastInDim S1024x1 ![] bcast_S_S1024x1 (constant (F := Ideal) S_ .f32 0x7FC00000#32))

/-- The cluster weight of every row: the weight vector gathered at the row's cluster id (a negative id moved up by 100). -/
def rowWeight0 (cw : FVec Ideal S100 .f32) (t : IVec S1024 32) : FVec Ideal S1024 .f32 :=
  Host.gather gather_S100_S1024x1_S1024_n_0_n_n_0_1_1 cw (broadcastInDim S1024x1 ![0] bcast_S1024_S1024x1_0
    (select (cmpi .slt t (broadcastInDim S1024 ![] bcast_S_S1024 (constantI S_ 32 0#32)))
      (addi t (broadcastInDim S1024 ![] bcast_S_S1024 (constantI S_ 32 100#32))) t))

/-- The weighted cross entropy of head 0: Σ_r w_r · (-log p_r) over Σ_r w_r, both sums from zero. -/
def crossEntropy0 (x : FVec Ideal S1024x100 .f32) (t : IVec S1024 32) (cw : FVec Ideal S100 .f32) : FVec Ideal S_ .f32 :=
  Host.divf
    (Host.reduceAdd (F := Ideal) (mulf (rowWeight0 cw t) (Host.negf (F := Ideal) (shapeCast S1024 (picked0 (logSoftmax0 x) t) shapeCasts_S1024x1_S1024)))
      (constant (F := Ideal) S_ .f32 0x00000000#32) reducesTo_S1024_S_d0 h_S_)
    (Host.reduceAdd (F := Ideal) (rowWeight0 cw t) (constant (F := Ideal) S_ .f32 0x00000000#32) reducesTo_S1024_S_d0 h_S_)

/-! ## Head 1: 50 clusters over 1024 pooled channels -/

/-- The logits: the pooled features times the transposed classifier matrix, plus the bias on every row. -/
def logits1 (p : FVec Ideal S1024x1024 .f32) (W : FVec Ideal S50x1024 .f32) (b : FVec Ideal S50 .f32) : FVec Ideal S1024x50 .f32 :=
  addf (Host.dotGeneral (F := Ideal) dot_S1024x1024_S1024x50_S1024x50_1_0_0_1_n_n none p (transpose S1024x50 [1, 0] W transposes_S50x1024_S1024x50_1_0))
    (broadcastInDim S1024x50 ![0, 1] bcast_S1x50_S1024x50_0_1 (broadcastInDim S1x50 ![1] bcast_S50_S1x50_1 b))

/-- The logits minus their row maximum (the maximum taken from -∞). -/
def shifted1 (x : FVec Ideal S1024x50 .f32) : FVec Ideal S1024x50 .f32 :=
  subf x (broadcastInDim S1024x50 ![0, 1] bcast_S1024x1_S1024x50_0_1 (broadcastInDim S1024x1 ![0] bcast_S1024_S1024x1_0
    (maximumf (broadcastInDim S1024 ![] bcast_S_S1024 (constant (F := Ideal) S_ .f32 0xFF800000#32))
      (Host.reduce (FloatOps.maximumf (F := Ideal)) x (constant (F := Ideal) S_ .f32 0xFF800000#32) reducesTo_S1024x50_S1024_d1 h_S_))))

/-- The row-wise log-softmax: the shifted logits minus the logarithm of the row sum of their exponentials. -/
def logSoftmax1 (x : FVec Ideal S1024x50 .f32) : FVec Ideal S1024x50 .f32 :=
  subf (shifted1 x) (broadcastInDim S1024x50 ![0, 1] bcast_S1024x1_S1024x50_0_1
    (Host.log (F := Ideal) (broadcastInDim S1024x1 ![0] bcast_S1024_S1024x1_0
      (Host.reduceAdd (F := Ideal) (Host.exp (F := Ideal) (shifted1 x)) (constant (F := Ideal) S_ .f32 0x00000000#32) reducesTo_S1024x50_S1024_d1 h_S_))))

/-- A cluster id read as a column index: a negative id is moved up by 50 once. -/
def column1 (t : IVec S1024 32) : IVec S1024x1x1 32 :=
  shapeCast S1024x1x1
    (select (cmpi .slt (broadcastInDim S1024x1 ![0] bcast_S1024_S1024x1_0 t) (broadcastInDim S1024x1 ![] bcast_S_S1024x1 (constantI S_ 32 0#32)))
      (addi (broadcastInDim S1024x1 ![0] bcast_S1024_S1024x1_0 t) (broadcastInDim S1024x1 ![] bcast_S_S1024x1 (constantI S_ 32 50#32)))
      (broadcastInDim S1024x1 ![0] bcast_S1024_S1024x1_0 t))
    shapeCasts_S1024x1_S1024x1x1

/-- Row r's log-probability at its own cluster's column: the entry where the column lies in 0 … 49, the NaN pattern
    elsewhere. -/
def picked1 (lp : FVec Ideal S1024x50 .f32) (t : IVec S1024 32) : FVec Ideal S1024x1 .f32 :=
  select
    (Host.reduce IntOp.andi
      (andi (cmpi .sge (column1 t) (broadcastInDim S1024x1x1 ![] bcast_S_S1024x1x1 (constantI S_ 32 0#32)))
        (cmpi .sle (column1 t) (broadcastInDim S1024x1x1 ![0, 1, 2] bcast_S1x1x1_S1024x1x1_0_1_2
          (broadcastInDim S1x1x1 ![2] bcast_S1_S1x1x1_2 (constantI S1 32 49#32)))))
      (constantI S_ 1 1#1) reducesTo_S1024x1x1_S1024x1_d2 h_S_)
    (Host.gather gather_S1024x50_S1024x1x1_S1024x1_n_1_0_0_1_2_11 lp (column1 t))
    (broadcastInDim S1024x1 ![] bcast_S_S1024x1 (constant (F := Ideal) S_ .f32 0x7FC00000#32))

/-- The cluster weight of every row: the weight vector gathered at the row's cluster id (a negative id moved up by 50). -/
def rowWeight1 (cw : FVec Ideal S50 .f32) (t : IVec S1024 32) : FVec Ideal S1024 .f32 :=
  Host.gather gather_S50_S1024x1_S1024_n_0_n_n_0_1_1 cw (broadcastInDim S1024x1 ![0] bcast_S1024_S1024x1_0
    (select (cmpi .slt t (broadcastInDim S1024 ![] bcast_S_S1024 (constantI S_ 32 0#32)))
      (addi t (broadcastInDim S1024 ![] bcast_S_S1024 (constantI S_ 32 50#32))) t))

/-- The weighted cross entropy of head 1: Σ_r w_r · (-log p_r) over Σ_r w_r, both sums from zero. -/
def crossEntropy1 (x : FVec Ideal S1024x50 .f32) (t : IVec S1024 32) (cw : FVec Ideal S50 .f32) : FVec Ideal S_ .f32 :=
  Host.divf
    (Host.reduceAdd (F := Ideal) (mulf (rowWeight1 cw t) (Host.negf (F := Ideal) (shapeCast S1024 (picked1 (logSoftmax1 x) t) shapeCasts_S1024x1_S1024)))
      (constant (F := Ideal) S_ .f32 0x00000000#32) reducesTo_S1024_S_d0 h_S_)
    (Host.reduceAdd (F := Ideal) (rowWeight1 cw t) (constant (F := Ideal) S_ .f32 0x00000000#32) reducesTo_S1024_S_d0 h_S_)

/-! ## The loss -/

/-- The loss from the pooled features: the two heads' weighted cross entropies, added. -/
def loss (p0 : FVec Ideal S1024x512 .f32) (p1 : FVec Ideal S1024x1024 .f32) (W0 : FVec Ideal S100x512 .f32) (b0 : FVec Ideal S100 .f32)
    (W1 : FVec Ideal S50x1024 .f32) (b1 : FVec Ideal S50 .f32) (lut0 lut1 : IVec S1000 32) (cw0 : FVec Ideal S100 .f32) (cw1 : FVec Ideal S50 .f32)
    (target : IVec S1024 32) : FVec Ideal S_ .f32 :=
  addf (crossEntropy0 (logits0 p0 W0 b0) (cluster lut0 target) cw0)
    (crossEntropy1 (logits1 p1 W1 b1) (cluster lut1 target) cw1)

end Cert.ClusterLoss

end
-- ==== Proof.RefRun.lean ====
/-
  The reference's run, read: @main is a straight line of 149 host operations (the two outlined functions, log-softmax
  and take-along-axis, stand inline at their calls), so every weakly fair execution runs them in order and ends with
  each buffer at the value the line computes for it. Followed from the result buffer back to the arguments, the line is
  the loss of the two pooled feature matrices (the mean of each argument over its two spatial axes) and of the other
  nine arguments, and no operation writes an argument.
-/
import proofs.«113053_j23862838297190_1_alg».proof.Proof.Gen.ReferenceIdeal
import proofs.«113053_j23862838297190_1_alg».proof.Proof.ClusterLoss
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's 149 host operations in program order; an outlined function's operations stand where it is called. -/
abbrev ops : List (HloOp τ sig (Elt F)) :=
  [ nullary main_cst (constant S_ .f32 0x00000000#32),
    binary main_arg0 main_cst main_v0 ((fun x v => Host.reduceAdd x v reducesTo_S1024x512x14x14_S1024x512_d2_3 h_S_) : (⟨S1024x512x14x14, .f32⟩ : BufTy).Contents (Elt F) → (⟨S_, .f32⟩ : BufTy).Contents (Elt F) → (⟨S1024x512, .f32⟩ : BufTy).Contents (Elt F)),
    nullary main_cst_0 (constant S_ .f32 0x43440000#32),
    unary main_cst_0 main_v1 (broadcastInDim S1024x512 ![] bcast_S_S1024x512 : (⟨S_, .f32⟩ : BufTy).Contents (Elt F) → (⟨S1024x512, .f32⟩ : BufTy).Contents (Elt F)),
    binary main_v0 main_v1 main_v2 (Host.divf : (⟨S1024x512, .f32⟩ : BufTy).Contents (Elt F) → (⟨S1024x512, .f32⟩ : BufTy).Contents (Elt F) → (⟨S1024x512, .f32⟩ : BufTy).Contents (Elt F)),
    unary main_arg2 main_v3 ((transpose S512x100 [1, 0] · transposes_S100x512_S512x100_1_0) : (⟨S100x512, .f32⟩ : BufTy).Contents (Elt F) → (⟨S512x100, .f32⟩ : BufTy).Contents (Elt F)),
    binary main_v2 main_v3 main_v4 ((fun l r => Host.dotGeneral dot_S1024x512_S512x100_S1024x100_1_0_0_1_n_n none l r) : (⟨S1024x512, .f32⟩ : BufTy).Contents (Elt F) → (⟨S512x100, .f32⟩ : BufTy).Contents (Elt F) → (⟨S1024x100, .f32⟩ : BufTy).Contents (Elt F)),
    unary main_arg3 main_v5 (broadcastInDim S1x100 ![1] bcast_S100_S1x100_1 : (⟨S100, .f32⟩ : BufTy).Contents (Elt F) → (⟨S1x100, .f32⟩ : BufTy).Contents (Elt F)),
    unary main_v5 main_v6 (broadcastInDim S1024x100 ![0, 1] bcast_S1x100_S1024x100_0_1 : (⟨S1x100, .f32⟩ : BufTy).Contents (Elt F) → (⟨S1024x100, .f32⟩ : BufTy).Contents (Elt F)),
    binary main_v4 main_v6 main_v7 (addf : (⟨S1024x100, .f32⟩ : BufTy).Contents (Elt F) → (⟨S1024x100, .f32⟩ : BufTy).Contents (Elt F) → (⟨S1024x100, .f32⟩ : BufTy).Contents (Elt F)),
    nullary main_c (constantI S_ 32 0#32),
    unary main_c main_v8 (broadcastInDim S1024 ![] bcast_S_S1024 : (⟨S_, .i32⟩ : BufTy).Contents (Elt F) → (⟨S1024, .i32⟩ : BufTy).Contents (Elt F)),
    binary main_arg10 main_v8 main_v9 (cmpi .slt : (⟨S1024, .i32⟩ : BufTy).Contents (Elt F) → (⟨S1024, .i32⟩ : BufTy).Contents (Elt F) → (⟨S1024, .i1⟩ : BufTy).Contents (Elt F)),
    nullary main_c_1 (constantI S_ 32 1000#32),
    unary main_c_1 main_v10 (broadcastInDim S1024 ![] bcast_S_S1024 : (⟨S_, .i32⟩ : BufTy).Contents (Elt F) → (⟨S1024, .i32⟩ : BufTy).Contents (Elt F)),
    binary main_arg10 main_v10 main_v11 (addi : (⟨S1024, .i32⟩ : BufTy).Contents (Elt F) → (⟨S1024, .i32⟩ : BufTy).Contents (Elt F) → (⟨S1024, .i32⟩ : BufTy).Contents (Elt F)),
    ternary main_v9 main_v11 main_arg10 main_v12 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v12 main_v13 (broadcastInDim S1024x1 ![0] bcast_S1024_S1024x1_0 : (⟨S1024, .i32⟩ : BufTy).Contents (Elt F) → (⟨S1024x1, .i32⟩ : BufTy).Contents (Elt F)),
    binary main_arg6 main_v13 main_v14 ((fun x i => Host.gather gather_S1000_S1024x1_S1024_n_0_n_n_0_1_1 x i) : (⟨S1000, .i32⟩ : BufTy).Contents (Elt F) → (⟨S1024x1, .i32⟩ : BufTy).Contents (Elt F) → (⟨S1024, .i32⟩ : BufTy).Contents (Elt F)),
    TRef.nullary (TRef.of (T := ⟨S_, .f32⟩) main_call0_cst) (constant S_ .f32 0xFF800000#32),
    TRef.binary (TRef.of (T := ⟨S1024x100, .f32⟩) main_v7) (TRef.of (T := ⟨S_, .f32⟩) main_call0_cst) (TRef.of (T := ⟨S1024, .f32⟩) main_call0_v0) (fun x v => Host.reduce FloatOps.maximumf x v reducesTo_S1024x100_S1024_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1024, .f32⟩) main_call0_v1) (broadcastInDim S1024 ![] bcast_S_S1024),
    TRef.binary (TRef.of (T := ⟨S1024, .f32⟩) main_call0_v1) (TRef.of (T := ⟨S1024, .f32⟩) main_call0_v0) (TRef.of (T := ⟨S1024, .f32⟩) main_call0_v2) maximumf,
    TRef.unary (TRef.of (T := ⟨S1024, .f32⟩) main_call0_v2) (TRef.of (T := ⟨S1024x1, .f32⟩) main_call0_v3) (broadcastInDim S1024x1 ![0] bcast_S1024_S1024x1_0),
    TRef.unary (TRef.of (T := ⟨S1024x1, .f32⟩) main_call0_v3) (TRef.of (T := ⟨S1024x100, .f32⟩) main_call0_v4) (broadcastInDim S1024x100 ![0, 1] bcast_S1024x1_S1024x100_0_1),
    TRef.binary (TRef.of (T := ⟨S1024x100, .f32⟩) main_v7) (TRef.of (T := ⟨S1024x100, .f32⟩) main_call0_v4) (TRef.of (T := ⟨S1024x100, .f32⟩) main_call0_v5) subf,
    TRef.unary (TRef.of (T := ⟨S1024x100, .f32⟩) main_call0_v5) (TRef.of (T := ⟨S1024x100, .f32⟩) main_call0_v6) Host.exp,
    TRef.nullary (TRef.of (T := ⟨S_, .f32⟩) main_call0_cst_1) (constant S_ .f32 0x00000000#32),
    TRef.binary (TRef.of (T := ⟨S1024x100, .f32⟩) main_call0_v6) (TRef.of (T := ⟨S_, .f32⟩) main_call0_cst_1) (TRef.of (T := ⟨S1024, .f32⟩) main_call0_v7) (fun x v => Host.reduceAdd x v reducesTo_S1024x100_S1024_d1 h_S_),
    TRef.unary (TRef.of (T := ⟨S1024, .f32⟩) main_call0_v7) (TRef.of (T := ⟨S1024x1, .f32⟩) main_call0_v8) (broadcastInDim S1024x1 ![0] bcast_S1024_S1024x1_0),
    TRef.unary (TRef.of (T := ⟨S1024x1, .f32⟩) main_call0_v8) (TRef.of (T := ⟨S1024x1, .f32⟩) main_call0_v9) Host.log,
    TRef.unary (TRef.of (T := ⟨S1024x1, .f32⟩) main_call0_v9) (TRef.of (T := ⟨S1024x100, .f32⟩) main_call0_v10) (broadcastInDim S1024x100 ![0, 1] bcast_S1024x1_S1024x100_0_1),
    TRef.binary (TRef.of (T := ⟨S1024x100, .f32⟩) main_call0_v5) (TRef.of (T := ⟨S1024x100, .f32⟩) main_call0_v10) (TRef.of (T := ⟨S1024x100, .f32⟩) main_v15) subf,
    unary main_v14 main_v16 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1024x1, .i32⟩) main_call1_v0) (broadcastInDim S1024x1 ![] bcast_S_S1024x1),
    TRef.binary (TRef.of (T := ⟨S1024x1, .i32⟩) main_v16) (TRef.of (T := ⟨S1024x1, .i32⟩) main_call1_v0) (TRef.of (T := ⟨S1024x1, .i1⟩) main_call1_v1) (cmpi .slt),
    TRef.nullary (TRef.of (T := ⟨S_, .i32⟩) main_call1_c_0) (constantI S_ 32 100#32),
    TRef.unary (TRef.of (T := ⟨S_, .i32⟩) main_call1_c_0) (TRef.of (T := ⟨S1024x1, .i32⟩) main_call1_v2) (broadcastInDim S1024x1 ![] bcast_S_S1024x1),
    TRef.binary (TRef.of (T := ⟨S1024x1, .i32⟩) main_v16) (TRef.of (T := ⟨S1024x1, .i32⟩) main_call1_v2) (TRef.of (T := ⟨S1024x1, .i32⟩) main_call1_v3) addi,
    TRef.ternary (TRef.of (T := ⟨S1024x1, .i1⟩) main_call1_v1) (TRef.of (T := ⟨S1024x1, .i32⟩) main_call1_v3) (TRef.of (T := ⟨S1024x1, .i32⟩) main_v16) (TRef.of (T := ⟨S1024x1, .i32⟩) main_call1_v4) select,
    TRef.reshape (TRef.of (T := ⟨S1024x1, .i32⟩) main_call1_v4) (TRef.of (T := ⟨S1024x1x1, .i32⟩) main_call1_v5) rfl shapeCasts_S1024x1_S1024x1x1,
    TRef.nullary (TRef.of (T := ⟨S1, .i32⟩) main_call1_c_1) (constantI S1 32 99#32),
    TRef.nullary (TRef.of (T := ⟨S_, .i32⟩) main_call1_c_2) (constantI S_ 32 0#32),
    TRef.unary (TRef.of (T := ⟨S_, .i32⟩) main_call1_c_2) (TRef.of (T := ⟨S1024x1x1, .i32⟩) main_call1_v6) (broadcastInDim S1024x1x1 ![] bcast_S_S1024x1x1),
    TRef.binary (TRef.of (T := ⟨S1024x1x1, .i32⟩) main_call1_v5) (TRef.of (T := ⟨S1024x1x1, .i32⟩) main_call1_v6) (TRef.of (T := ⟨S1024x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1024x1x1, .i32⟩) main_call1_v9) (broadcastInDim S1024x1x1 ![0, 1, 2] bcast_S1x1x1_S1024x1x1_0_1_2),
    TRef.binary (TRef.of (T := ⟨S1024x1x1, .i32⟩) main_call1_v5) (TRef.of (T := ⟨S1024x1x1, .i32⟩) main_call1_v9) (TRef.of (T := ⟨S1024x1x1, .i1⟩) main_call1_v10) (cmpi .sle),
    TRef.binary (TRef.of (T := ⟨S1024x1x1, .i1⟩) main_call1_v7) (TRef.of (T := ⟨S1024x1x1, .i1⟩) main_call1_v10) (TRef.of (T := ⟨S1024x1x1, .i1⟩) main_call1_v11) andi,
    TRef.nullary (TRef.of (T := ⟨S_, .i1⟩) main_call1_c_3) (constantI S_ 1 1#1),
    TRef.binary (TRef.of (T := ⟨S1024x1x1, .i1⟩) main_call1_v11) (TRef.of (T := ⟨S_, .i1⟩) main_call1_c_3) (TRef.of (T := ⟨S1024x1, .i1⟩) main_call1_v12) (fun x v => Host.reduce IntOp.andi x v reducesTo_S1024x1x1_S1024x1_d2 h_S_),
    TRef.binary (TRef.of (T := ⟨S1024x100, .f32⟩) main_v15) (TRef.of (T := ⟨S1024x1x1, .i32⟩) main_call1_v5) (TRef.of (T := ⟨S1024x1, .f32⟩) main_call1_v13) (fun x i => Host.gather gather_S1024x100_S1024x1x1_S1024x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1024x1, .f32⟩) main_call1_v14) (broadcastInDim S1024x1 ![] bcast_S_S1024x1),
    TRef.ternary (TRef.of (T := ⟨S1024x1, .i1⟩) main_call1_v12) (TRef.of (T := ⟨S1024x1, .f32⟩) main_call1_v13) (TRef.of (T := ⟨S1024x1, .f32⟩) main_call1_v14) (TRef.of (T := ⟨S1024x1, .f32⟩) main_v17) select,
    reshape main_v17 main_v18 rfl shapeCasts_S1024x1_S1024,
    unary main_v18 main_v19 (Host.negf : (⟨S1024, .f32⟩ : BufTy).Contents (Elt F) → (⟨S1024, .f32⟩ : BufTy).Contents (Elt F)),
    nullary main_c_2 (constantI S_ 32 0#32),
    unary main_c_2 main_v20 (broadcastInDim S1024 ![] bcast_S_S1024 : (⟨S_, .i32⟩ : BufTy).Contents (Elt F) → (⟨S1024, .i32⟩ : BufTy).Contents (Elt F)),
    binary main_v14 main_v20 main_v21 (cmpi .slt : (⟨S1024, .i32⟩ : BufTy).Contents (Elt F) → (⟨S1024, .i32⟩ : BufTy).Contents (Elt F) → (⟨S1024, .i1⟩ : BufTy).Contents (Elt F)),
    nullary main_c_3 (constantI S_ 32 100#32),
    unary main_c_3 main_v22 (broadcastInDim S1024 ![] bcast_S_S1024 : (⟨S_, .i32⟩ : BufTy).Contents (Elt F) → (⟨S1024, .i32⟩ : BufTy).Contents (Elt F)),
    binary main_v14 main_v22 main_v23 (addi : (⟨S1024, .i32⟩ : BufTy).Contents (Elt F) → (⟨S1024, .i32⟩ : BufTy).Contents (Elt F) → (⟨S1024, .i32⟩ : BufTy).Contents (Elt F)),
    ternary main_v21 main_v23 main_v14 main_v24 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v24 main_v25 (broadcastInDim S1024x1 ![0] bcast_S1024_S1024x1_0 : (⟨S1024, .i32⟩ : BufTy).Contents (Elt F) → (⟨S1024x1, .i32⟩ : BufTy).Contents (Elt F)),
    binary main_arg8 main_v25 main_v26 ((fun x i => Host.gather gather_S100_S1024x1_S1024_n_0_n_n_0_1_1 x i) : (⟨S100, .f32⟩ : BufTy).Contents (Elt F) → (⟨S1024x1, .i32⟩ : BufTy).Contents (Elt F) → (⟨S1024, .f32⟩ : BufTy).Contents (Elt F)),
    binary main_v26 main_v19 main_v27 (mulf : (⟨S1024, .f32⟩ : BufTy).Contents (Elt F) → (⟨S1024, .f32⟩ : BufTy).Contents (Elt F) → (⟨S1024, .f32⟩ : BufTy).Contents (Elt F)),
    nullary main_cst_4 (constant S_ .f32 0x00000000#32),
    binary main_v27 main_cst_4 main_v28 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_5 (constant S_ .f32 0x00000000#32),
    binary main_v26 main_cst_5 main_v29 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    binary main_v28 main_v29 main_v30 (Host.divf : (⟨S_, .f32⟩ : BufTy).Contents (Elt F) → (⟨S_, .f32⟩ : BufTy).Contents (Elt F) → (⟨S_, .f32⟩ : BufTy).Contents (Elt F)),
    nullary main_cst_6 (constant S_ .f32 0x00000000#32),
    binary main_arg1 main_cst_6 main_v31 ((fun x v => Host.reduceAdd x v reducesTo_S1024x1024x7x7_S1024x1024_d2_3 h_S_) : (⟨S1024x1024x7x7, .f32⟩ : BufTy).Contents (Elt F) → (⟨S_, .f32⟩ : BufTy).Contents (Elt F) → (⟨S1024x1024, .f32⟩ : BufTy).Contents (Elt F)),
    nullary main_cst_7 (constant S_ .f32 0x42440000#32),
    unary main_cst_7 main_v32 (broadcastInDim S1024x1024 ![] bcast_S_S1024x1024 : (⟨S_, .f32⟩ : BufTy).Contents (Elt F) → (⟨S1024x1024, .f32⟩ : BufTy).Contents (Elt F)),
    binary main_v31 main_v32 main_v33 (Host.divf : (⟨S1024x1024, .f32⟩ : BufTy).Contents (Elt F) → (⟨S1024x1024, .f32⟩ : BufTy).Contents (Elt F) → (⟨S1024x1024, .f32⟩ : BufTy).Contents (Elt F)),
    unary main_arg4 main_v34 ((transpose S1024x50 [1, 0] · transposes_S50x1024_S1024x50_1_0) : (⟨S50x1024, .f32⟩ : BufTy).Contents (Elt F) → (⟨S1024x50, .f32⟩ : BufTy).Contents (Elt F)),
    binary main_v33 main_v34 main_v35 ((fun l r => Host.dotGeneral dot_S1024x1024_S1024x50_S1024x50_1_0_0_1_n_n none l r) : (⟨S1024x1024, .f32⟩ : BufTy).Contents (Elt F) → (⟨S1024x50, .f32⟩ : BufTy).Contents (Elt F) → (⟨S1024x50, .f32⟩ : BufTy).Contents (Elt F)),
    unary main_arg5 main_v36 (broadcastInDim S1x50 ![1] bcast_S50_S1x50_1 : (⟨S50, .f32⟩ : BufTy).Contents (Elt F) → (⟨S1x50, .f32⟩ : BufTy).Contents (Elt F)),
    unary main_v36 main_v37 (broadcastInDim S1024x50 ![0, 1] bcast_S1x50_S1024x50_0_1 : (⟨S1x50, .f32⟩ : BufTy).Contents (Elt F) → (⟨S1024x50, .f32⟩ : BufTy).Contents (Elt F)),
    binary main_v35 main_v37 main_v38 (addf : (⟨S1024x50, .f32⟩ : BufTy).Contents (Elt F) → (⟨S1024x50, .f32⟩ : BufTy).Contents (Elt F) → (⟨S1024x50, .f32⟩ : BufTy).Contents (Elt F)),
    nullary main_c_8 (constantI S_ 32 0#32),
    unary main_c_8 main_v39 (broadcastInDim S1024 ![] bcast_S_S1024 : (⟨S_, .i32⟩ : BufTy).Contents (Elt F) → (⟨S1024, .i32⟩ : BufTy).Contents (Elt F)),
    binary main_arg10 main_v39 main_v40 (cmpi .slt : (⟨S1024, .i32⟩ : BufTy).Contents (Elt F) → (⟨S1024, .i32⟩ : BufTy).Contents (Elt F) → (⟨S1024, .i1⟩ : BufTy).Contents (Elt F)),
    nullary main_c_9 (constantI S_ 32 1000#32),
    unary main_c_9 main_v41 (broadcastInDim S1024 ![] bcast_S_S1024 : (⟨S_, .i32⟩ : BufTy).Contents (Elt F) → (⟨S1024, .i32⟩ : BufTy).Contents (Elt F)),
    binary main_arg10 main_v41 main_v42 (addi : (⟨S1024, .i32⟩ : BufTy).Contents (Elt F) → (⟨S1024, .i32⟩ : BufTy).Contents (Elt F) → (⟨S1024, .i32⟩ : BufTy).Contents (Elt F)),
    ternary main_v40 main_v42 main_arg10 main_v43 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v43 main_v44 (broadcastInDim S1024x1 ![0] bcast_S1024_S1024x1_0 : (⟨S1024, .i32⟩ : BufTy).Contents (Elt F) → (⟨S1024x1, .i32⟩ : BufTy).Contents (Elt F)),
    binary main_arg7 main_v44 main_v45 ((fun x i => Host.gather gather_S1000_S1024x1_S1024_n_0_n_n_0_1_1 x i) : (⟨S1000, .i32⟩ : BufTy).Contents (Elt F) → (⟨S1024x1, .i32⟩ : BufTy).Contents (Elt F) → (⟨S1024, .i32⟩ : BufTy).Contents (Elt F)),
    TRef.nullary (TRef.of (T := ⟨S_, .f32⟩) main_call2_cst) (constant S_ .f32 0xFF800000#32),
    TRef.binary (TRef.of (T := ⟨S1024x50, .f32⟩) main_v38) (TRef.of (T := ⟨S_, .f32⟩) main_call2_cst) (TRef.of (T := ⟨S1024, .f32⟩) main_call2_v0) (fun x v => Host.reduce FloatOps.maximumf x v reducesTo_S1024x50_S1024_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S1024, .f32⟩) main_call2_v1) (broadcastInDim S1024 ![] bcast_S_S1024),
    TRef.binary (TRef.of (T := ⟨S1024, .f32⟩) main_call2_v1) (TRef.of (T := ⟨S1024, .f32⟩) main_call2_v0) (TRef.of (T := ⟨S1024, .f32⟩) main_call2_v2) maximumf,
    TRef.unary (TRef.of (T := ⟨S1024, .f32⟩) main_call2_v2) (TRef.of (T := ⟨S1024x1, .f32⟩) main_call2_v3) (broadcastInDim S1024x1 ![0] bcast_S1024_S1024x1_0),
    TRef.unary (TRef.of (T := ⟨S1024x1, .f32⟩) main_call2_v3) (TRef.of (T := ⟨S1024x50, .f32⟩) main_call2_v4) (broadcastInDim S1024x50 ![0, 1] bcast_S1024x1_S1024x50_0_1),
    TRef.binary (TRef.of (T := ⟨S1024x50, .f32⟩) main_v38) (TRef.of (T := ⟨S1024x50, .f32⟩) main_call2_v4) (TRef.of (T := ⟨S1024x50, .f32⟩) main_call2_v5) subf,
    TRef.unary (TRef.of (T := ⟨S1024x50, .f32⟩) main_call2_v5) (TRef.of (T := ⟨S1024x50, .f32⟩) main_call2_v6) Host.exp,
    TRef.nullary (TRef.of (T := ⟨S_, .f32⟩) main_call2_cst_1) (constant S_ .f32 0x00000000#32),
    TRef.binary (TRef.of (T := ⟨S1024x50, .f32⟩) main_call2_v6) (TRef.of (T := ⟨S_, .f32⟩) main_call2_cst_1) (TRef.of (T := ⟨S1024, .f32⟩) main_call2_v7) (fun x v => Host.reduceAdd x v reducesTo_S1024x50_S1024_d1 h_S_),
    TRef.unary (TRef.of (T := ⟨S1024, .f32⟩) main_call2_v7) (TRef.of (T := ⟨S1024x1, .f32⟩) main_call2_v8) (broadcastInDim S1024x1 ![0] bcast_S1024_S1024x1_0),
    TRef.unary (TRef.of (T := ⟨S1024x1, .f32⟩) main_call2_v8) (TRef.of (T := ⟨S1024x1, .f32⟩) main_call2_v9) Host.log,
    TRef.unary (TRef.of (T := ⟨S1024x1, .f32⟩) main_call2_v9) (TRef.of (T := ⟨S1024x50, .f32⟩) main_call2_v10) (broadcastInDim S1024x50 ![0, 1] bcast_S1024x1_S1024x50_0_1),
    TRef.binary (TRef.of (T := ⟨S1024x50, .f32⟩) main_call2_v5) (TRef.of (T := ⟨S1024x50, .f32⟩) main_call2_v10) (TRef.of (T := ⟨S1024x50, .f32⟩) main_v46) subf,
    unary main_v45 main_v47 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S1024x1, .i32⟩) main_call3_v0) (broadcastInDim S1024x1 ![] bcast_S_S1024x1),
    TRef.binary (TRef.of (T := ⟨S1024x1, .i32⟩) main_v47) (TRef.of (T := ⟨S1024x1, .i32⟩) main_call3_v0) (TRef.of (T := ⟨S1024x1, .i1⟩) main_call3_v1) (cmpi .slt),
    TRef.nullary (TRef.of (T := ⟨S_, .i32⟩) main_call3_c_0) (constantI S_ 32 50#32),
    TRef.unary (TRef.of (T := ⟨S_, .i32⟩) main_call3_c_0) (TRef.of (T := ⟨S1024x1, .i32⟩) main_call3_v2) (broadcastInDim S1024x1 ![] bcast_S_S1024x1),
    TRef.binary (TRef.of (T := ⟨S1024x1, .i32⟩) main_v47) (TRef.of (T := ⟨S1024x1, .i32⟩) main_call3_v2) (TRef.of (T := ⟨S1024x1, .i32⟩) main_call3_v3) addi,
    TRef.ternary (TRef.of (T := ⟨S1024x1, .i1⟩) main_call3_v1) (TRef.of (T := ⟨S1024x1, .i32⟩) main_call3_v3) (TRef.of (T := ⟨S1024x1, .i32⟩) main_v47) (TRef.of (T := ⟨S1024x1, .i32⟩) main_call3_v4) select,
    TRef.reshape (TRef.of (T := ⟨S1024x1, .i32⟩) main_call3_v4) (TRef.of (T := ⟨S1024x1x1, .i32⟩) main_call3_v5) rfl shapeCasts_S1024x1_S1024x1x1,
    TRef.nullary (TRef.of (T := ⟨S1, .i32⟩) main_call3_c_1) (constantI S1 32 49#32),
    TRef.nullary (TRef.of (T := ⟨S_, .i32⟩) main_call3_c_2) (constantI S_ 32 0#32),
    TRef.unary (TRef.of (T := ⟨S_, .i32⟩) main_call3_c_2) (TRef.of (T := ⟨S1024x1x1, .i32⟩) main_call3_v6) (broadcastInDim S1024x1x1 ![] bcast_S_S1024x1x1),
    TRef.binary (TRef.of (T := ⟨S1024x1x1, .i32⟩) main_call3_v5) (TRef.of (T := ⟨S1024x1x1, .i32⟩) main_call3_v6) (TRef.of (T := ⟨S1024x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S1024x1x1, .i32⟩) main_call3_v9) (broadcastInDim S1024x1x1 ![0, 1, 2] bcast_S1x1x1_S1024x1x1_0_1_2),
    TRef.binary (TRef.of (T := ⟨S1024x1x1, .i32⟩) main_call3_v5) (TRef.of (T := ⟨S1024x1x1, .i32⟩) main_call3_v9) (TRef.of (T := ⟨S1024x1x1, .i1⟩) main_call3_v10) (cmpi .sle),
    TRef.binary (TRef.of (T := ⟨S1024x1x1, .i1⟩) main_call3_v7) (TRef.of (T := ⟨S1024x1x1, .i1⟩) main_call3_v10) (TRef.of (T := ⟨S1024x1x1, .i1⟩) main_call3_v11) andi,
    TRef.nullary (TRef.of (T := ⟨S_, .i1⟩) main_call3_c_3) (constantI S_ 1 1#1),
    TRef.binary (TRef.of (T := ⟨S1024x1x1, .i1⟩) main_call3_v11) (TRef.of (T := ⟨S_, .i1⟩) main_call3_c_3) (TRef.of (T := ⟨S1024x1, .i1⟩) main_call3_v12) (fun x v => Host.reduce IntOp.andi x v reducesTo_S1024x1x1_S1024x1_d2 h_S_),
    TRef.binary (TRef.of (T := ⟨S1024x50, .f32⟩) main_v46) (TRef.of (T := ⟨S1024x1x1, .i32⟩) main_call3_v5) (TRef.of (T := ⟨S1024x1, .f32⟩) main_call3_v13) (fun x i => Host.gather gather_S1024x50_S1024x1x1_S1024x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S1024x1, .f32⟩) main_call3_v14) (broadcastInDim S1024x1 ![] bcast_S_S1024x1),
    TRef.ternary (TRef.of (T := ⟨S1024x1, .i1⟩) main_call3_v12) (TRef.of (T := ⟨S1024x1, .f32⟩) main_call3_v13) (TRef.of (T := ⟨S1024x1, .f32⟩) main_call3_v14) (TRef.of (T := ⟨S1024x1, .f32⟩) main_v48) select,
    reshape main_v48 main_v49 rfl shapeCasts_S1024x1_S1024,
    unary main_v49 main_v50 (Host.negf : (⟨S1024, .f32⟩ : BufTy).Contents (Elt F) → (⟨S1024, .f32⟩ : BufTy).Contents (Elt F)),
    nullary main_c_10 (constantI S_ 32 0#32),
    unary main_c_10 main_v51 (broadcastInDim S1024 ![] bcast_S_S1024 : (⟨S_, .i32⟩ : BufTy).Contents (Elt F) → (⟨S1024, .i32⟩ : BufTy).Contents (Elt F)),
    binary main_v45 main_v51 main_v52 (cmpi .slt : (⟨S1024, .i32⟩ : BufTy).Contents (Elt F) → (⟨S1024, .i32⟩ : BufTy).Contents (Elt F) → (⟨S1024, .i1⟩ : BufTy).Contents (Elt F)),
    nullary main_c_11 (constantI S_ 32 50#32),
    unary main_c_11 main_v53 (broadcastInDim S1024 ![] bcast_S_S1024 : (⟨S_, .i32⟩ : BufTy).Contents (Elt F) → (⟨S1024, .i32⟩ : BufTy).Contents (Elt F)),
    binary main_v45 main_v53 main_v54 (addi : (⟨S1024, .i32⟩ : BufTy).Contents (Elt F) → (⟨S1024, .i32⟩ : BufTy).Contents (Elt F) → (⟨S1024, .i32⟩ : BufTy).Contents (Elt F)),
    ternary main_v52 main_v54 main_v45 main_v55 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v55 main_v56 (broadcastInDim S1024x1 ![0] bcast_S1024_S1024x1_0 : (⟨S1024, .i32⟩ : BufTy).Contents (Elt F) → (⟨S1024x1, .i32⟩ : BufTy).Contents (Elt F)),
    binary main_arg9 main_v56 main_v57 ((fun x i => Host.gather gather_S50_S1024x1_S1024_n_0_n_n_0_1_1 x i) : (⟨S50, .f32⟩ : BufTy).Contents (Elt F) → (⟨S1024x1, .i32⟩ : BufTy).Contents (Elt F) → (⟨S1024, .f32⟩ : BufTy).Contents (Elt F)),
    binary main_v57 main_v50 main_v58 (mulf : (⟨S1024, .f32⟩ : BufTy).Contents (Elt F) → (⟨S1024, .f32⟩ : BufTy).Contents (Elt F) → (⟨S1024, .f32⟩ : BufTy).Contents (Elt F)),
    nullary main_cst_12 (constant S_ .f32 0x00000000#32),
    binary main_v58 main_cst_12 main_v59 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_13 (constant S_ .f32 0x00000000#32),
    binary main_v57 main_cst_13 main_v60 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    binary main_v59 main_v60 main_v61 (Host.divf : (⟨S_, .f32⟩ : BufTy).Contents (Elt F) → (⟨S_, .f32⟩ : BufTy).Contents (Elt F) → (⟨S_, .f32⟩ : BufTy).Contents (Elt F)),
    binary main_v30 main_v61 main_v62 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., binary_bufs_sub .., nullary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., binary_bufs_sub .., binary_bufs_sub ..⟩

set_option maxRecDepth 16384 in
set_option maxHeartbeats 4000000 in
/-- From any memory with zero counters every weakly fair execution of the reference terminates; the result buffer then
    holds the loss of the pooled arguments, and the eleven arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62)
        = Cert.ClusterLoss.loss (Cert.ClusterLoss.pooled0 (m ((c.tc : Thread nD τ).loc main_arg0)))
            (Cert.ClusterLoss.pooled1 (m ((c.tc : Thread nD τ).loc main_arg1)))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v62).trans (by chain_rfl),
      (h c main_arg0).trans (by chain_rfl),
      (h c main_arg1).trans (by chain_rfl),
      (h c main_arg2).trans (by chain_rfl),
      (h c main_arg3).trans (by chain_rfl),
      (h c main_arg4).trans (by chain_rfl),
      (h c main_arg5).trans (by chain_rfl),
      (h c main_arg6).trans (by chain_rfl),
      (h c main_arg7).trans (by chain_rfl),
      (h c main_arg8).trans (by chain_rfl),
      (h c main_arg9).trans (by chain_rfl),
      (h c main_arg10).trans (by chain_rfl)⟩)
    (run_seq scopedRefs_eq scopedSems_eq defs main (fun _ => ops) main_eq (fun _ => ops_sub) m ρ)

end Cert.ReferenceIdeal.HandRun

end
-- ==== Proof.KernelRun.lean ====
/-
  The idealized kernel's run, with its result. @main is a reshape of the first feature map, the first pooling call, a
  reshape of the second feature map, the second pooling call, and then the host operations of the two heads' losses.
  From any memory with zero counters every weakly fair execution goes through these segments in order, and at the end
  every unscoped buffer of the TensorCore holds what the walk through the segments computes for it (`Gen.W13`: each
  stretch's operations applied to the contents before it, each call's result array at what its write-backs leave).
  Read at the result buffer this gives the scalar the program returns; read at the eleven arguments, which no segment
  writes, it gives the launch contents.
-/
import proofs.«113053_j23862838297190_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates without a fault; the result buffer then holds what the
    segment walk computes for it and every argument array is as launched. -/
theorem run : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v60 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.ResultRun

end
-- ==== Proof.KernelTail.lean ====
/-
  What the idealized kernel computes after its two pooling calls. The stretches of host operations that follow the
  second call are, followed from the result buffer back, the loss of the two calls' result arrays and of the other
  nine arguments (the same function the reference applies to its own pooled matrices), read from the buffer contents
  at the second call's exit. Those contents are: at the first call's result array what that call left (no later
  operation writes it); at the second call's result array what it left; at an argument's buffer the launch contents
  (the only operations before are the two reshapes and the two calls, none of which writes an argument).
-/
import proofs.«113053_j23862838297190_1_alg».proof.Proof.Gen.KernelIdeal.Frame
import proofs.«113053_j23862838297190_1_alg».proof.Proof.ClusterLoss
import Idealize.ShloMosaic.Lib.StableHlo.Run
import Idealize.ShloMosaic.Lib.Pipeline.Regions

noncomputable section

namespace Cert.KernelIdeal.Tail

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxRecDepth 16384 in
set_option maxHeartbeats 4000000 in
/-- The result buffer after the last stretch: the loss of the buffer contents at the second call's exit. -/
theorem tail_eq (c : Dev nD) :
    W13 m ρ c (Proc.devRef .tc main_v60)
      = Cert.ClusterLoss.loss (W4 m ρ c (Proc.devRef .tc main_v1)) (W4 m ρ c (Proc.devRef .tc main_v3))
          (W4 m ρ c (Proc.devRef .tc main_arg2))
          (W4 m ρ c (Proc.devRef .tc main_arg3))
          (W4 m ρ c (Proc.devRef .tc main_arg4))
          (W4 m ρ c (Proc.devRef .tc main_arg5))
          (W4 m ρ c (Proc.devRef .tc main_arg6))
          (W4 m ρ c (Proc.devRef .tc main_arg7))
          (W4 m ρ c (Proc.devRef .tc main_arg8))
          (W4 m ρ c (Proc.devRef .tc main_arg9))
          (W4 m ρ c (Proc.devRef .tc main_arg10)) := by
  chain_rfl

/-- A buffer that neither call's windows stage and neither reshape writes holds, at the second call's exit, its launch
    contents. -/
theorem exit_of_untouched (b : Ref sig .tc) (h1 : ∀ w, Pipeline.arrRef spec1 w ≠ b) (hb1 : b ≠ main_v2)
    (h0 : ∀ w, Pipeline.arrRef spec0 w ≠ b) (hb0 : b ≠ main_v0) (c : Dev nD) :
    W4 m ρ c (Proc.devRef .tc b) = m ((c : Thread nD τ).loc b) := by
  rw [W4_of_ne m ρ c b h1]
  have e3 : W3 m ρ c (Proc.devRef .tc b) = W2 m ρ c (Proc.devRef .tc b) := by
    dsimp only [W3, hostOps1]
    rw [after_cons, after_nil, reshape_result_ne]
    exact hb1
  rw [e3, W2_of_ne m ρ c b h0]
  dsimp only [W1, hostOps0]
  rw [after_cons, after_nil, reshape_result_ne]
  exact hb0

/-- The first call's result array still holds, at the second call's exit, what the first call left. -/
theorem exit_first (c : Dev nD) : W4 m ρ c (Proc.devRef .tc main_v1) = (dat0 (V1 m ρ) c).arrAt 1 cfg0.N := by
  rw [W4_of_ne m ρ c main_v1 (by decide)]
  have e3 : W3 m ρ c (Proc.devRef .tc main_v1) = W2 m ρ c (Proc.devRef .tc main_v1) := by
    dsimp only [W3, hostOps1]
    rw [after_cons, after_nil, reshape_result_ne]
    decide
  rw [e3]
  exact W2_arr m ρ c 1

/-- The second call's result array holds what that call left. -/
theorem exit_second (c : Dev nD) : W4 m ρ c (Proc.devRef .tc main_v3) = (dat1 (V3 m ρ) c).arrAt 1 cfg1.N :=
  W4_arr m ρ c 1

end Cert.KernelIdeal.Tail

end
-- ==== Proof.LibTrailingSum.lean ====
/-
  Sums over the trailing axes of an array, read on the extended reals, for a global average pooling.

  For an array x of shape [A, C, H, W] write pos p q k for the index (p, q, k / W, k % W): the k-th position of
  channel q of sample p, positions counted in row-major order. Then
   * the host's sum of x over its two trailing axes, started from init, is at (p, q) the value init + Σ_{k < H·W} x (pos p q k):
     the indices that reduce to (p, q) are exactly the positions of that channel, and k ↦ pos p q k lists each once;
   * the row-major reshape of x to [A, C, H·W] holds x (pos p q k) at (p, q, k);
   * a vector unit's sum of an array y of shape [B, C, K] over its last axis is at (p, q) the value Σ_{k < K} y (p, q, k).
  No finiteness is used: the extended reals are a commutative monoid under addition, and the sums are re-indexed only.
  Generic in all the extents.
-/
import Idealize.ShloMosaic.PureOps.Ideal.Laws
import Idealize.ShloMosaic.Lib.ValueIdx
import Idealize.ShloMosaic.Lib.Pipeline.Value

noncomputable section

namespace Cert.LibTrailingSum

open Idealize.ShloMosaic Idealize.ShloMosaic.ValueIdx

/-- The k-th spatial position (row-major) of channel q of sample p, as an index of an [A, C, H, W] array. -/
def pos {A C H W : Nat} (p : Fin A) (q : Fin C) (k : Fin (H * W)) : (⟨4, ![A, C, H, W]⟩ : Shape).Idx :=
  ix4 p q ⟨k.val / W, Nat.div_lt_of_lt_mul (Nat.lt_of_lt_of_eq k.isLt (Nat.mul_comm H W))⟩
    ⟨k.val % W, Nat.mod_lt _ (Nat.pos_of_ne_zero fun h => by
      have hk := k.isLt
      have h0 : H * W = 0 := by rw [h, Nat.mul_zero]
      omega)⟩

theorem pos_val {A C H W : Nat} (p : Fin A) (q : Fin C) (k : Fin (H * W)) :
    ((pos p q k) 0).val = p.val ∧ ((pos p q k) 1).val = q.val ∧ ((pos p q k) 2).val = k.val / W ∧ ((pos p q k) 3).val = k.val % W :=
  ⟨rfl, rfl, rfl, rfl⟩

/-- The host's sum over the two trailing axes at (p, q): the initial value plus the sum over the H·W positions. -/
theorem hostReduceAdd_trailing2 {A C H W : Nat}
    (h' : (⟨4, ![A, C, H, W]⟩ : Shape).ReducesTo [2, 3] ⟨2, ![A, C]⟩)
    (x : (⟨4, ![A, C, H, W]⟩ : Shape).Idx → EReal) (init : EReal) (p : Fin A) (q : Fin C) :
    Ideal.hostReduceAdd h' x init (ix2 p q) = init + ∑ k : Fin (H * W), x (pos p q k) := by
  unfold Ideal.hostReduceAdd
  congr 1
  have key : ∀ i : (⟨4, ![A, C, H, W]⟩ : Shape).Idx, h'.drop i = ix2 p q → (i 0).val = p.val ∧ (i 1).val = q.val := by
    intro i hi
    exact ⟨congrArg (fun j : (⟨2, ![A, C]⟩ : Shape).Idx => (j 0).val) hi, congrArg (fun j : (⟨2, ![A, C]⟩ : Shape).Idx => (j 1).val) hi⟩
  have bound : ∀ i : (⟨4, ![A, C, H, W]⟩ : Shape).Idx, (i 2).val * W + (i 3).val < H * W := by
    intro i
    have h2 : (i 2).val < H := (i 2).isLt
    have h3 : (i 3).val < W := (i 3).isLt
    calc (i 2).val * W + (i 3).val < (i 2).val * W + W := by omega
      _ = ((i 2).val + 1) * W := by ring
      _ ≤ H * W := Nat.mul_le_mul_right W h2
  have back : ∀ i : (⟨4, ![A, C, H, W]⟩ : Shape).Idx, h'.drop i = ix2 p q → pos p q ⟨(i 2).val * W + (i 3).val, bound i⟩ = i := by
    intro i hi
    obtain ⟨e0, e1⟩ := key i hi
    have h3 : (i 3).val < W := (i 3).isLt
    have hW : 0 < W := by omega
    funext a
    apply Fin.ext
    match a with
    | ⟨0, _⟩ => exact e0.symm
    | ⟨1, _⟩ => exact e1.symm
    | ⟨2, _⟩ =>
      show ((i 2).val * W + (i 3).val) / W = (i 2).val
      rw [Nat.mul_comm, Nat.mul_add_div hW, Nat.div_eq_of_lt h3, Nat.add_zero]
    | ⟨3, _⟩ =>
      show ((i 2).val * W + (i 3).val) % W = (i 3).val
      rw [Nat.mul_comm, Nat.mul_add_mod, Nat.mod_eq_of_lt h3]
  refine Finset.sum_nbij' (fun i => ⟨(i 2).val * W + (i 3).val, bound i⟩) (fun k => pos p q k) ?_ ?_ ?_ ?_ ?_
  · intro i _; exact Finset.mem_univ _
  · intro k _
    refine Finset.mem_filter.2 ⟨Finset.mem_univ _, ?_⟩
    funext b
    apply Fin.ext
    match b with
    | ⟨0, _⟩ => rfl
    | ⟨1, _⟩ => rfl
  · intro i hi; exact back i (Finset.mem_filter.1 hi).2
  · intro k _
    apply Fin.ext
    show (k.val / W) * W + k.val % W = k.val
    exact Nat.div_add_mod' k.val W
  · intro i hi; rw [back i (Finset.mem_filter.1 hi).2]

/-- The row-major reshape [A, C, H, W] → [A, C, H·W] holds, at (p, q, k), the k-th position of channel q of sample p. -/
theorem reshape_trailing2 {α : Type} {A C H W : Nat} (x : (⟨4, ![A, C, H, W]⟩ : Shape).Idx → α)
    (h : (⟨4, ![A, C, H, W]⟩ : Shape).ShapeCasts ⟨3, ![A, C, H * W]⟩) (p : Fin A) (q : Fin C) (k : Fin (H * W)) :
    shapeCast ⟨3, ![A, C, H * W]⟩ x h (ix3 p q k) = x (pos p q k) := by
  refine shapeCast_apply x h _ _ ?_
  rw [Shape.rowMajor_val_four, Shape.rowMajor_val_three]
  show ((p.val * C + q.val) * H + k.val / W) * W + k.val % W = (p.val * C + q.val) * (H * W) + k.val
  have := Nat.div_add_mod' k.val W
  rw [Nat.add_mul, Nat.mul_assoc, Nat.add_assoc, this]

/-- A vector unit's sum over the last axis of a [B, C, K] array at (p, q): the sum over that axis's K coordinates. -/
theorem multiReduction_add_last {φ : FTy} {B C K : Nat} (src : FVec Ideal ⟨3, ![B, C, K]⟩ φ) (acc : BitVec φ.bits)
    (h : (⟨3, ![B, C, K]⟩ : Shape).Reduces [2] ⟨2, ![B, C]⟩) (hφ : FKind.Formats φ) (hacc : acc = FKind.add.neutral φ hφ)
    (p : Fin B) (q : Fin C) :
    multiReduction .add [2] ⟨2, ![B, C]⟩ src acc h hφ hacc (ix2 p q) = ∑ k : Fin K, src (ix3 p q k) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

end Cert.LibTrailingSum

end
-- ==== Proof.Pooled0.lean ====
/-
  The first pooling call computes the reference's pooled features.

  The call tiles the [1024, 512] result by blocks of 64 samples × 256 channels over a 16 × 2 grid; at grid point (i, j)
  it reads block (i, j, 0) of the input [1024, 512, 196] — all 196 positions of those samples and channels — and
  writes block (i, j) of the result: at (p, q) the sum over the last axis of the input block's row (p, q, ·), divided
  by 196. The input is the row-major reshape of the argument [1024, 512, 14, 14], so position k of a channel is
  (k / 14, k % 14); the reference's value at (P, Q) is zero plus the sum over the 14 × 14 positions of channel Q of
  sample P, divided by the same 196. With P = 64·i + p and Q = 256·j + q the two sums have the same terms in the same
  order, so every written block is the matching block of the reference's pooled matrix; the blocks cover the result
  (the point for row P, column Q is (P / 64, Q / 256)), hence after the call the result array is that matrix.
-/
import proofs.«113053_j23862838297190_1_alg».proof.Proof.Gen.KernelIdeal.Frame
import proofs.«113053_j23862838297190_1_alg».proof.Proof.ClusterLoss
import proofs.«113053_j23862838297190_1_alg».proof.Proof.LibTrailingSum
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Pooled0

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.LibTrailingSum

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's value and the reference's value at one entry -/

/-- What the body stores at (p, q): the sum of the loaded block's row (p, q, ·) over its 196 positions, divided by 196. -/
theorem stored_apply (x0 : Vec Ideal S64x256x196 .f32) (p : Fin 64) (q : Fin 256) :
    k0_pay1 (F := Ideal) x0 (ix2 p q) = Ideal.div (∑ k : Fin 196, x0 (ix3 p q k)) (Ideal.ofBits .f32 0x43440000#32) := by
  unfold k0_pay1
  show Ideal.div (multiReduction (F := Ideal) .add [2] S64x256 (shapeCast S64x256x196 x0 shapeCasts_S64x256x196_S64x256x196) 0x00000000#32
    reduces_S64x256x196_S64x256 (.inl rfl) rfl (ix2 p q)) (Ideal.ofBits .f32 0x43440000#32) = _
  rw [shapeCast_self]
  exact congrArg (fun s => Ideal.div s (Ideal.ofBits .f32 0x43440000#32)) (multiReduction_add_last x0 _ _ _ _ p q)

/-- The reference's pooled value at (P, Q): the sum over the 14 × 14 positions of channel Q of sample P (from zero),
    divided by 196. -/
theorem pooled_apply (feat : FVec Ideal S1024x512x14x14 .f32) (P : Fin 1024) (Q : Fin 512) :
    Cert.ClusterLoss.pooled0 feat (ix2 P Q)
      = Ideal.div (∑ k : Fin 196, feat (pos (H := 14) (W := 14) P Q k)) (Ideal.ofBits .f32 0x43440000#32) := by
  unfold Cert.ClusterLoss.pooled0
  show Ideal.div (Ideal.hostReduceAdd _ feat (Ideal.ofBits .f32 0x00000000#32) (ix2 P Q)) (Ideal.ofBits .f32 0x43440000#32) = _
  refine congrArg (fun s => Ideal.div s (Ideal.ofBits .f32 0x43440000#32)) ?_
  refine (hostReduceAdd_trailing2 (H := 14) (W := 14) _ feat _ P Q).trans ?_
  rw [Ideal.ofBits_zero_f32, zero_add]

/-- So a block whose row (p, q, ·) is row (P, Q, ·) of the reshaped argument stores, at (p, q), the reference's pooled
    value at (P, Q). -/
theorem stored_eq_pooled (feat : FVec Ideal S1024x512x14x14 .f32) (x0 : Vec Ideal S64x256x196 .f32)
    (p : Fin 64) (q : Fin 256) (P : Fin 1024) (Q : Fin 512)
    (hx : ∀ k : Fin 196, x0 (ix3 p q k) = shapeCast S1024x512x196 feat shapeCasts_S1024x512x14x14_S1024x512x196 (ix3 P Q k)) :
    k0_pay1 (F := Ideal) x0 (ix2 p q) = Cert.ClusterLoss.pooled0 feat (ix2 P Q) := by
  rw [stored_apply, pooled_apply]
  refine congrArg (fun s => Ideal.div s (Ideal.ofBits .f32 0x43440000#32)) (Finset.sum_congr rfl fun k _ => ?_)
  exact (hx k).trans (reshape_trailing2 (H := 14) (W := 14) feat _ P Q k)

/-- The same at any entry y of the block and any entry i of the result. -/
theorem stored_eq_pooled_at (feat : FVec Ideal S1024x512x14x14 .f32) (x0 : Vec Ideal S64x256x196 .f32) (y : S64x256.Idx) (i : S1024x512.Idx)
    (hx : ∀ k : Fin 196, x0 (ix3 (y 0) (y 1) k) = shapeCast S1024x512x196 feat shapeCasts_S1024x512x14x14_S1024x512x196 (ix3 (i 0) (i 1) k)) :
    k0_pay1 (F := Ideal) x0 y = Cert.ClusterLoss.pooled0 feat i := by
  rw [eq_ix2 y, eq_ix2 i]
  exact stored_eq_pooled feat x0 (y 0) (y 1) (i 0) (i 1) hx

/-! ## The call's input array and its blocks -/

/-- The array the call reads is the row-major reshape of the argument. -/
theorem input_eq (c : Dev nD) : (V1 m ρ c main_v0 : S1024x512x196.Idx → EReal)
    = shapeCast S1024x512x196 (m ((c : Thread nD τ).loc main_arg0)) shapeCasts_S1024x512x14x14_S1024x512x196 := by
  dsimp only [V1, W1, hostOps0]; after_results; rfl

/-- The printed index maps over the grid: the input block's first two block indices are the output block's, its
    third is 0, and the output's block indices stay below 16 and 2. -/
theorem idx_facts : ∀ t : Fin cfg0.N,
    win0_0.index t (0 : Fin 3) = win0_1.index t (0 : Fin 2) ∧ win0_0.index t (1 : Fin 3) = win0_1.index t (1 : Fin 2)
    ∧ win0_0.index t (2 : Fin 3) = 0 ∧ win0_1.index t (0 : Fin 2) ≤ 15 ∧ win0_1.index t (1 : Fin 2) ≤ 1 :=
  (by decide +kernel : ∀ t : Fin grid0.N, _)

/-- Every block of the result is some grid point's. -/
theorem idx_onto : ∀ (q0 : Fin 16) (q1 : Fin 2), ∃ t : Fin cfg0.N, win0_1.index t = ![q0.val, q1.val] :=
  (by decide +kernel : ∀ (q0 : Fin 16) (q1 : Fin 2), ∃ t : Fin grid0.N, win0_1.index t = ![q0.val, q1.val])

/-- The input block at point t, read at x, is the input array at x moved by the block's offsets. -/
theorem iblk_apply (c : Dev nD) (t : Fin cfg0.N) (x : S64x256x196.Idx) (g : S1024x512x196.Idx)
    (h0 : (g 0).val = win0_0.index t (0 : Fin 3) * 64 + (x 0).val)
    (h1 : (g 1).val = win0_0.index t (1 : Fin 3) * 256 + (x 1).val)
    (h2 : (g 2).val = win0_0.index t (2 : Fin 3) * 196 + (x 2).val) :
    (iblk0 (V1 m ρ) c 0 t : Vec Ideal S64x256x196 .f32) x = (V1 m ρ c main_v0 : S1024x512x196.Idx → EReal) g := by
  unfold iblk0
  rw [View.read_apply]
  show V1 m ρ c main_v0 _ = V1 m ρ c main_v0 _
  congr 1
  funext a
  apply Fin.ext
  match a with
  | ⟨0, _⟩ => show win0_0.index t (0 : Fin 3) * 64 + 1 * (x 0).val = (g 0).val; omega
  | ⟨1, _⟩ => show win0_0.index t (1 : Fin 3) * 256 + 1 * (x 1).val = (g 1).val; omega
  | ⟨2, _⟩ => show win0_0.index t (2 : Fin 3) * 196 + 1 * (x 2).val = (g 2).val; omega

/-! ## Every write-back is a block of the reference's pooled matrix, and the blocks cover the result -/

/-- What point t writes back is block t of the reference's pooled matrix of the argument. -/
theorem flushed_eq (c : Dev nD) (t : Fin cfg0.N) :
    (dat0 (V1 m ρ) c).flushed 1 t
      = ((cfg0.win 1).blk t).view.read (Elt Ideal) (Cert.ClusterLoss.pooled0 (m ((c : Thread nD τ).loc main_arg0))) := by
  show (cfg0.win 1).cut (grid0.coords t) ((dat0 (V1 m ρ) c).after 1 t) = _
  rw [after0_1]
  unfold out0_1
  rw [View.canon_unit_zero hz2]
  simp only [View.ld_unit_zero (S := S64x256x196) hz3]
  obtain ⟨e0, e1, e2, b0, b1⟩ := idx_facts t
  funext j
  show k0_pay1 (F := Ideal) (iblk0 (V1 m ρ) c 0 t) j
    = Cert.ClusterLoss.pooled0 (m ((c : Thread nD τ).loc main_arg0)) (((cfg0.win 1).blk t).view.emb j)
  refine stored_eq_pooled_at _ _ j (((cfg0.win 1).blk t).view.emb j) fun k => ?_
  rw [← input_eq m ρ c]
  refine iblk_apply m ρ c t _ _ ?_ ?_ ?_
  · show win0_1.index t (0 : Fin 2) * 64 + 1 * (j 0).val = win0_0.index t (0 : Fin 3) * 64 + (j 0).val; rw [e0]; omega
  · show win0_1.index t (1 : Fin 2) * 256 + 1 * (j 1).val = win0_0.index t (1 : Fin 3) * 256 + (j 1).val; rw [e1]; omega
  · show k.val = win0_0.index t (2 : Fin 3) * 196 + k.val; rw [e2]; omega

/-- An index of the result is in point t's block iff each coordinate is in the block's range on its axis. -/
theorem mem_blk (t : Fin cfg0.N) (i : S1024x512.Idx) :
    i ∈ ((cfg0.win 1).blk t).view.set
      ↔ ∀ a : Fin 2, win0_1.index t a * S64x256.size a ≤ (i a).val ∧ (i a).val < win0_1.index t a * S64x256.size a + S64x256.size a := by
  show i ∈ ((View.whole main_v1).slice (win0_1.rect t)).set ↔ _
  rw [View.set_slice_whole, Rect.mem_set_unit]
  exact Iff.rfl

/-- Every entry of the result lies in some point's block: row P, column Q in the block of point (P / 64, Q / 256). -/
theorem cover (i : S1024x512.Idx) :
    ∃ t : Fin cfg0.N, (cfg0.win 1).flush t = true ∧ i ∈ ((cfg0.win 1).blk t).view.set := by
  have hi0 : (i 0).val < 1024 := (i 0).isLt
  have hi1 : (i 1).val < 512 := (i 1).isLt
  obtain ⟨t, ht⟩ := idx_onto ⟨(i 0).val / 64, by omega⟩ ⟨(i 1).val / 256, by omega⟩
  have q0 : win0_1.index t (0 : Fin 2) = (i 0).val / 64 := congrFun ht 0
  have q1 : win0_1.index t (1 : Fin 2) = (i 1).val / 256 := congrFun ht 1
  refine ⟨t, flush0_1 t, ?_⟩
  rw [mem_blk]
  intro a
  match a with
  | ⟨0, _⟩ => show win0_1.index t (0 : Fin 2) * 64 ≤ (i 0).val ∧ (i 0).val < win0_1.index t (0 : Fin 2) * 64 + 64; omega
  | ⟨1, _⟩ => show win0_1.index t (1 : Fin 2) * 256 ≤ (i 1).val ∧ (i 1).val < win0_1.index t (1 : Fin 2) * 256 + 256; omega

/-- After the call its result array is the reference's pooled matrix of the argument. -/
theorem final (c : Dev nD) :
    (dat0 (V1 m ρ) c).arrAt 1 cfg0.N = Cert.ClusterLoss.pooled0 (m ((c : Thread nD τ).loc main_arg0)) :=
  (dat0 (V1 m ρ) c).arrAt_eq_of_cover 1 _ (fun t _ => flushed_eq m ρ c t) cover

end Cert.KernelIdeal.Pooled0

end
-- ==== Proof.Pooled1.lean ====
/-
  The second pooling call computes the reference's pooled features.

  The call tiles the [1024, 1024] result by blocks of 64 samples × 512 channels over a 16 × 2 grid; at grid point (i, j)
  it reads block (i, j, 0) of the input [1024, 1024, 49] — all 49 positions of those samples and channels — and
  writes block (i, j) of the result: at (p, q) the sum over the last axis of the input block's row (p, q, ·), divided
  by 49. The input is the row-major reshape of the argument [1024, 1024, 7, 7], so position k of a channel is
  (k / 7, k % 7); the reference's value at (P, Q) is zero plus the sum over the 7 × 7 positions of channel Q of
  sample P, divided by the same 49. With P = 64·i + p and Q = 512·j + q the two sums have the same terms in the same
  order, so every written block is the matching block of the reference's pooled matrix; the blocks cover the result
  (the point for row P, column Q is (P / 64, Q / 512)), hence after the call the result array is that matrix.
-/
import proofs.«113053_j23862838297190_1_alg».proof.Proof.Gen.KernelIdeal.Frame
import proofs.«113053_j23862838297190_1_alg».proof.Proof.ClusterLoss
import proofs.«113053_j23862838297190_1_alg».proof.Proof.LibTrailingSum
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Pooled1

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.LibTrailingSum

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's value and the reference's value at one entry -/

/-- What the body stores at (p, q): the sum of the loaded block's row (p, q, ·) over its 49 positions, divided by 49. -/
theorem stored_apply (x0 : Vec Ideal S64x512x49 .f32) (p : Fin 64) (q : Fin 512) :
    k1_pay1 (F := Ideal) x0 (ix2 p q) = Ideal.div (∑ k : Fin 49, x0 (ix3 p q k)) (Ideal.ofBits .f32 0x42440000#32) := by
  unfold k1_pay1
  show Ideal.div (multiReduction (F := Ideal) .add [2] S64x512 (shapeCast S64x512x49 x0 shapeCasts_S64x512x49_S64x512x49) 0x00000000#32
    reduces_S64x512x49_S64x512 (.inl rfl) rfl (ix2 p q)) (Ideal.ofBits .f32 0x42440000#32) = _
  rw [shapeCast_self]
  exact congrArg (fun s => Ideal.div s (Ideal.ofBits .f32 0x42440000#32)) (multiReduction_add_last x0 _ _ _ _ p q)

/-- The reference's pooled value at (P, Q): the sum over the 7 × 7 positions of channel Q of sample P (from zero),
    divided by 49. -/
theorem pooled_apply (feat : FVec Ideal S1024x1024x7x7 .f32) (P : Fin 1024) (Q : Fin 1024) :
    Cert.ClusterLoss.pooled1 feat (ix2 P Q)
      = Ideal.div (∑ k : Fin 49, feat (pos (H := 7) (W := 7) P Q k)) (Ideal.ofBits .f32 0x42440000#32) := by
  unfold Cert.ClusterLoss.pooled1
  show Ideal.div (Ideal.hostReduceAdd _ feat (Ideal.ofBits .f32 0x00000000#32) (ix2 P Q)) (Ideal.ofBits .f32 0x42440000#32) = _
  refine congrArg (fun s => Ideal.div s (Ideal.ofBits .f32 0x42440000#32)) ?_
  refine (hostReduceAdd_trailing2 (H := 7) (W := 7) _ feat _ P Q).trans ?_
  rw [Ideal.ofBits_zero_f32, zero_add]

/-- So a block whose row (p, q, ·) is row (P, Q, ·) of the reshaped argument stores, at (p, q), the reference's pooled
    value at (P, Q). -/
theorem stored_eq_pooled (feat : FVec Ideal S1024x1024x7x7 .f32) (x0 : Vec Ideal S64x512x49 .f32)
    (p : Fin 64) (q : Fin 512) (P : Fin 1024) (Q : Fin 1024)
    (hx : ∀ k : Fin 49, x0 (ix3 p q k) = shapeCast S1024x1024x49 feat shapeCasts_S1024x1024x7x7_S1024x1024x49 (ix3 P Q k)) :
    k1_pay1 (F := Ideal) x0 (ix2 p q) = Cert.ClusterLoss.pooled1 feat (ix2 P Q) := by
  rw [stored_apply, pooled_apply]
  refine congrArg (fun s => Ideal.div s (Ideal.ofBits .f32 0x42440000#32)) (Finset.sum_congr rfl fun k _ => ?_)
  exact (hx k).trans (reshape_trailing2 (H := 7) (W := 7) feat _ P Q k)

/-- The same at any entry y of the block and any entry i of the result. -/
theorem stored_eq_pooled_at (feat : FVec Ideal S1024x1024x7x7 .f32) (x0 : Vec Ideal S64x512x49 .f32) (y : S64x512.Idx) (i : S1024x1024.Idx)
    (hx : ∀ k : Fin 49, x0 (ix3 (y 0) (y 1) k) = shapeCast S1024x1024x49 feat shapeCasts_S1024x1024x7x7_S1024x1024x49 (ix3 (i 0) (i 1) k)) :
    k1_pay1 (F := Ideal) x0 y = Cert.ClusterLoss.pooled1 feat i := by
  rw [eq_ix2 y, eq_ix2 i]
  exact stored_eq_pooled feat x0 (y 0) (y 1) (i 0) (i 1) hx

/-! ## The call's input array and its blocks -/

/-- The array the call reads is the row-major reshape of the argument. -/
theorem input_eq (c : Dev nD) : (V3 m ρ c main_v2 : S1024x1024x49.Idx → EReal)
    = shapeCast S1024x1024x49 (m ((c : Thread nD τ).loc main_arg1)) shapeCasts_S1024x1024x7x7_S1024x1024x49 := by
  have e : W2 m ρ c (Proc.devRef .tc main_arg1) = m ((c : Thread nD τ).loc main_arg1) := by
    rw [W2_of_ne m ρ c main_arg1 (by decide)]
    dsimp only [W1, hostOps0]; after_results
  dsimp only [V3, W3, hostOps1]; after_results; rw [e]; rfl

/-- The printed index maps over the grid: the input block's first two block indices are the output block's, its
    third is 0, and the output's block indices stay below 16 and 2. -/
theorem idx_facts : ∀ t : Fin cfg1.N,
    win1_0.index t (0 : Fin 3) = win1_1.index t (0 : Fin 2) ∧ win1_0.index t (1 : Fin 3) = win1_1.index t (1 : Fin 2)
    ∧ win1_0.index t (2 : Fin 3) = 0 ∧ win1_1.index t (0 : Fin 2) ≤ 15 ∧ win1_1.index t (1 : Fin 2) ≤ 1 :=
  (by decide +kernel : ∀ t : Fin grid1.N, _)

/-- Every block of the result is some grid point's. -/
theorem idx_onto : ∀ (q0 : Fin 16) (q1 : Fin 2), ∃ t : Fin cfg1.N, win1_1.index t = ![q0.val, q1.val] :=
  (by decide +kernel : ∀ (q0 : Fin 16) (q1 : Fin 2), ∃ t : Fin grid1.N, win1_1.index t = ![q0.val, q1.val])

/-- The input block at point t, read at x, is the input array at x moved by the block's offsets. -/
theorem iblk_apply (c : Dev nD) (t : Fin cfg1.N) (x : S64x512x49.Idx) (g : S1024x1024x49.Idx)
    (h0 : (g 0).val = win1_0.index t (0 : Fin 3) * 64 + (x 0).val)
    (h1 : (g 1).val = win1_0.index t (1 : Fin 3) * 512 + (x 1).val)
    (h2 : (g 2).val = win1_0.index t (2 : Fin 3) * 49 + (x 2).val) :
    (iblk1 (V3 m ρ) c 0 t : Vec Ideal S64x512x49 .f32) x = (V3 m ρ c main_v2 : S1024x1024x49.Idx → EReal) g := by
  unfold iblk1
  rw [View.read_apply]
  show V3 m ρ c main_v2 _ = V3 m ρ c main_v2 _
  congr 1
  funext a
  apply Fin.ext
  match a with
  | ⟨0, _⟩ => show win1_0.index t (0 : Fin 3) * 64 + 1 * (x 0).val = (g 0).val; omega
  | ⟨1, _⟩ => show win1_0.index t (1 : Fin 3) * 512 + 1 * (x 1).val = (g 1).val; omega
  | ⟨2, _⟩ => show win1_0.index t (2 : Fin 3) * 49 + 1 * (x 2).val = (g 2).val; omega

/-! ## Every write-back is a block of the reference's pooled matrix, and the blocks cover the result -/

/-- What point t writes back is block t of the reference's pooled matrix of the argument. -/
theorem flushed_eq (c : Dev nD) (t : Fin cfg1.N) :
    (dat1 (V3 m ρ) c).flushed 1 t
      = ((cfg1.win 1).blk t).view.read (Elt Ideal) (Cert.ClusterLoss.pooled1 (m ((c : Thread nD τ).loc main_arg1))) := by
  show (cfg1.win 1).cut (grid1.coords t) ((dat1 (V3 m ρ) c).after 1 t) = _
  rw [after1_1]
  unfold out1_1
  rw [View.canon_unit_zero hz2]
  simp only [View.ld_unit_zero (S := S64x512x49) hz3]
  obtain ⟨e0, e1, e2, b0, b1⟩ := idx_facts t
  funext j
  show k1_pay1 (F := Ideal) (iblk1 (V3 m ρ) c 0 t) j
    = Cert.ClusterLoss.pooled1 (m ((c : Thread nD τ).loc main_arg1)) (((cfg1.win 1).blk t).view.emb j)
  refine stored_eq_pooled_at _ _ j (((cfg1.win 1).blk t).view.emb j) fun k => ?_
  rw [← input_eq m ρ c]
  refine iblk_apply m ρ c t _ _ ?_ ?_ ?_
  · show win1_1.index t (0 : Fin 2) * 64 + 1 * (j 0).val = win1_0.index t (0 : Fin 3) * 64 + (j 0).val; rw [e0]; omega
  · show win1_1.index t (1 : Fin 2) * 512 + 1 * (j 1).val = win1_0.index t (1 : Fin 3) * 512 + (j 1).val; rw [e1]; omega
  · show k.val = win1_0.index t (2 : Fin 3) * 49 + k.val; rw [e2]; omega

/-- An index of the result is in point t's block iff each coordinate is in the block's range on its axis. -/
theorem mem_blk (t : Fin cfg1.N) (i : S1024x1024.Idx) :
    i ∈ ((cfg1.win 1).blk t).view.set
      ↔ ∀ a : Fin 2, win1_1.index t a * S64x512.size a ≤ (i a).val ∧ (i a).val < win1_1.index t a * S64x512.size a + S64x512.size a := by
  show i ∈ ((View.whole main_v3).slice (win1_1.rect t)).set ↔ _
  rw [View.set_slice_whole, Rect.mem_set_unit]
  exact Iff.rfl

/-- Every entry of the result lies in some point's block: row P, column Q in the block of point (P / 64, Q / 512). -/
theorem cover (i : S1024x1024.Idx) :
    ∃ t : Fin cfg1.N, (cfg1.win 1).flush t = true ∧ i ∈ ((cfg1.win 1).blk t).view.set := by
  have hi0 : (i 0).val < 1024 := (i 0).isLt
  have hi1 : (i 1).val < 1024 := (i 1).isLt
  obtain ⟨t, ht⟩ := idx_onto ⟨(i 0).val / 64, by omega⟩ ⟨(i 1).val / 512, by omega⟩
  have q0 : win1_1.index t (0 : Fin 2) = (i 0).val / 64 := congrFun ht 0
  have q1 : win1_1.index t (1 : Fin 2) = (i 1).val / 512 := congrFun ht 1
  refine ⟨t, flush1_1 t, ?_⟩
  rw [mem_blk]
  intro a
  match a with
  | ⟨0, _⟩ => show win1_1.index t (0 : Fin 2) * 64 ≤ (i 0).val ∧ (i 0).val < win1_1.index t (0 : Fin 2) * 64 + 64; omega
  | ⟨1, _⟩ => show win1_1.index t (1 : Fin 2) * 512 ≤ (i 1).val ∧ (i 1).val < win1_1.index t (1 : Fin 2) * 512 + 512; omega

/-- After the call its result array is the reference's pooled matrix of the argument. -/
theorem final (c : Dev nD) :
    (dat1 (V3 m ρ) c).arrAt 1 cfg1.N = Cert.ClusterLoss.pooled1 (m ((c : Thread nD τ).loc main_arg1)) :=
  (dat1 (V3 m ρ) c).arrAt_eq_of_cover 1 _ (fun t _ => flushed_eq m ρ c t) cover

end Cert.KernelIdeal.Pooled1

end
-- ==== Proof.lean ====
/-
  The certificate of the pooled cluster loss: a two-head classifier loss whose only heavy step, the global average
  pooling of the two feature maps, the kernel does in two pallas calls and the reference with jnp.mean.

  Both programs compute  loss(P0, P1, W0, b0, W1, b1, lut0, lut1, cw0, cw1, target)  where the loss (module
  ClusterLoss) is, per head, the weighted cross entropy of the logits P·Wᵀ + b against the cluster of every sample's
  class, and where P0, P1 are the means of feat0 over its 14 × 14 and of feat1 over its 7 × 7 positions.
   * The reference's 149 host operations are that function of the arguments (module RefRun).
   * The idealized kernel reshapes each feature map to [1024, C, H·W], pools it block by block — each grid point
     sums its block's last axis and divides by H·W — and then runs the same host operations on the two results
     (modules KernelRun, KernelTail). Every written block is the matching block of the reference's pooled matrix,
     because position k of the reshaped last axis is position (k / W, k % W) of the map, so the two sums have the same
     terms, and both divide by the same number 196 or 49; the blocks cover the result (modules Pooled0, Pooled1 over
     LibTrailingSum).
  Only commutativity and associativity of addition on the extended reals are used (a sum re-indexed), so the finiteness
  of the inputs is never opened. The ideal pass rewrote nothing, so the kernel's idealization claim is trivial; the three
  frames are the two generated frames and the reference's run with its result dropped.
-/
import proofs.«113053_j23862838297190_1_alg».proof.Defs
import proofs.«113053_j23862838297190_1_alg».proof.Proof.Gen.Kernel
import proofs.«113053_j23862838297190_1_alg».proof.Proof.Gen.Kernel.Skeleton
import proofs.«113053_j23862838297190_1_alg».proof.Proof.Gen.Kernel.Launch
import proofs.«113053_j23862838297190_1_alg».proof.Proof.Gen.Kernel.Points
import proofs.«113053_j23862838297190_1_alg».proof.Proof.Gen.Kernel.Frame
import proofs.«113053_j23862838297190_1_alg».proof.Proof.Gen.KernelIdeal
import proofs.«113053_j23862838297190_1_alg».proof.Proof.Gen.KernelIdeal.Skeleton
import proofs.«113053_j23862838297190_1_alg».proof.Proof.Gen.KernelIdeal.Launch
import proofs.«113053_j23862838297190_1_alg».proof.Proof.Gen.KernelIdeal.Points
import proofs.«113053_j23862838297190_1_alg».proof.Proof.Gen.KernelIdeal.Frame
import proofs.«113053_j23862838297190_1_alg».proof.Proof.Gen.ReferenceIdeal
import proofs.«113053_j23862838297190_1_alg».proof.Proof.Gen.Pre_finite_inputs
import proofs.«113053_j23862838297190_1_alg».proof.Proof.ClusterLoss
import proofs.«113053_j23862838297190_1_alg».proof.Proof.RefRun
import proofs.«113053_j23862838297190_1_alg».proof.Proof.KernelRun
import proofs.«113053_j23862838297190_1_alg».proof.Proof.KernelTail
import proofs.«113053_j23862838297190_1_alg».proof.Proof.Pooled0
import proofs.«113053_j23862838297190_1_alg».proof.Proof.Pooled1
import Idealize.ShloMosaic.Adequacy
import Idealize.ShloMosaic.Init

noncomputable section

namespace Cert.Proof

open Idealize.ShloMosaic Idealize.SL.Sem

/-- What the idealized kernel leaves in its result buffer: the loss of the reference's pooled matrices of the first two
    arguments and of the other nine arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W13 m ρ c (Proc.devRef .tc Cert.KernelIdeal.main_v60)
      = Cert.ClusterLoss.loss (Cert.ClusterLoss.pooled0 (m ((c.tc : Thread Cert.KernelIdeal.nD Cert.KernelIdeal.τ).loc Cert.KernelIdeal.main_arg0)))
        (Cert.ClusterLoss.pooled1 (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) := by
  rw [Cert.KernelIdeal.Tail.tail_eq, Cert.KernelIdeal.Tail.exit_first, Cert.KernelIdeal.Tail.exit_second,
    Cert.KernelIdeal.Pooled0.final, Cert.KernelIdeal.Pooled1.final,
    Cert.KernelIdeal.Tail.exit_of_untouched m ρ Cert.KernelIdeal.main_arg2 (by decide) (by decide) (by decide) (by decide) c,
    Cert.KernelIdeal.Tail.exit_of_untouched m ρ Cert.KernelIdeal.main_arg3 (by decide) (by decide) (by decide) (by decide) c,
    Cert.KernelIdeal.Tail.exit_of_untouched m ρ Cert.KernelIdeal.main_arg4 (by decide) (by decide) (by decide) (by decide) c,
    Cert.KernelIdeal.Tail.exit_of_untouched m ρ Cert.KernelIdeal.main_arg5 (by decide) (by decide) (by decide) (by decide) c,
    Cert.KernelIdeal.Tail.exit_of_untouched m ρ Cert.KernelIdeal.main_arg6 (by decide) (by decide) (by decide) (by decide) c,
    Cert.KernelIdeal.Tail.exit_of_untouched m ρ Cert.KernelIdeal.main_arg7 (by decide) (by decide) (by decide) (by decide) c,
    Cert.KernelIdeal.Tail.exit_of_untouched m ρ Cert.KernelIdeal.main_arg8 (by decide) (by decide) (by decide) (by decide) c,
    Cert.KernelIdeal.Tail.exit_of_untouched m ρ Cert.KernelIdeal.main_arg9 (by decide) (by decide) (by decide) (by decide) c,
    Cert.KernelIdeal.Tail.exit_of_untouched m ρ Cert.KernelIdeal.main_arg10 (by decide) (by decide) (by decide) (by decide) c]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run m ρ)

/-- Both runs end with the loss of the pooled arguments in the result buffer; the memories agree on the arguments. -/
theorem algebraic : Cert.algebraic_KernelIdeal_ReferenceIdeal := by
  intro m ρ m' ρ' _ hagree
  refine ⟨fun c => Cert.ClusterLoss.loss (Cert.ClusterLoss.pooled0 (m ((c.tc : Thread Cert.KernelIdeal.nD Cert.KernelIdeal.τ).loc Cert.KernelIdeal.main_arg0)))
        (Cert.ClusterLoss.pooled1 (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        (m ((c.tc : Thread Cert.KernelIdeal.nD Cert.KernelIdeal.τ).loc Cert.KernelIdeal.main_arg10)), ?_, ?_⟩
  · exact (θ_run Cert.KernelIdeal.defs _ _).mono (fun _ h c => ⟨(h c).1.trans (kernel_result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.HandRun.run m' ρ')
    obtain ⟨a0, a1, a2, a3, a4, a5, a6, a7, a8, a9, a10⟩ := hagree c
    rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
